-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v307)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v307) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v317) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x3 : Shape := ⟨2, ![1048576, 3]⟩
abbrev S8192x3 : Shape := ⟨2, ![8192, 3]⟩
abbrev S12x128x128x128 : Shape := ⟨4, ![12, 128, 128, 128]⟩
abbrev S39x64 : Shape := ⟨2, ![39, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S1048576 : Shape := ⟨1, ![1048576]⟩
abbrev S_ : Shape := ⟨0, ![]⟩

class Facts : Prop where
  bcast_S_S1048576x3 : S_.BroadcastsInDim S1048576x3 (![] : Fin 0 → Fin S1048576x3.rank)
  reducesTo_S1048576x3_S_d0_1 : S1048576x3.ReducesTo [0, 1] S_
  h_S_ : 0 < S_.numel
  bcast_S_S8192x3 : S_.BroadcastsInDim S8192x3 (![] : Fin 0 → Fin S8192x3.rank)
  reducesTo_S8192x3_S_d0_1 : S8192x3.ReducesTo [0, 1] S_
  bcast_S_S12x128x128x128 : S_.BroadcastsInDim S12x128x128x128 (![] : Fin 0 → Fin S12x128x128x128.rank)
  reducesTo_S12x128x128x128_S_d0_1_2_3 : S12x128x128x128.ReducesTo [0, 1, 2, 3] S_
  bcast_S_S39x64 : S_.BroadcastsInDim S39x64 (![] : Fin 0 → Fin S39x64.rank)
  reducesTo_S39x64_S_d0_1 : S39x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S64x8 .f32) (main_arg8 : FVec F S8 .f32) (main_v33 : IVec S_ 1) : IVec S_ 1 :=
  let main_v34 : FVec F S64x8 .f32 := Host.absf main_arg7
  let main_cst_12 : FVec F S_ .f32 := constant S_ .f32 0x7F800000#32
  let main_v35 : FVec F S64x8 .f32 := broadcastInDim S64x8 ![] bcast_S_S64x8 main_cst_12
  let main_v36 : IVec S64x8 1 := cmpf .olt main_v34 main_v35
  let main_c_13 : IVec S_ 1 := constantI S_ 1 1#1
  let main_v37 : IVec S_ 1 := (fun x v => Host.reduce IntOp.andi x v reducesTo_S64x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x8 .f32) (main_arg8 : FVec F S8 .f32) (main_v13 : IVec S_ 1) (main_v16 : IVec S39x64 1) : IVec S_ 1 :=
  let main_c_5 : IVec S_ 1 := constantI S_ 1 1#1
  let main_v17 : IVec S_ 1 := (fun x v => Host.reduce IntOp.andi x v reducesTo_S39x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S1048576x3 .f32) (main_arg1 : FVec F S8192x3 .f32) (main_arg2 : FVec F S12x128x128x128 .f32) (main_arg3 : FVec F S39x64 .f32) (main_arg4 : FVec F S64 .f32) (main_arg5 : FVec F S64x64 .f32) (main_arg6 : FVec F S64 .f32) (main_arg7 : FVec F S64x8 .f32) (main_arg8 : FVec F S8 .f32) (main_arg9 : IVec S1048576 32) : IVec S_ 1 :=
  let main_v0 : FVec F S1048576x3 .f32 := Host.absf main_arg0
  let main_cst : FVec F S_ .f32 := constant S_ .f32 0x7F800000#32
  let main_v1 : FVec F S1048576x3 .f32 := broadcastInDim S1048576x3 ![] bcast_S_S1048576x3 main_cst
  let main_v2 : IVec S1048576x3 1 := cmpf .olt main_v0 main_v1
  let main_c : IVec S_ 1 := constantI S_ 1 1#1
  let main_v3 : IVec S_ 1 := (fun x v => Host.reduce IntOp.andi x v reducesTo_S1048576x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  let main_v9 : FVec F S12x128x128x128 .f32 := Host.absf main_arg2
  let main_cst_2 : FVec F S_ .f32 := constant S_ .f32 0x7F800000#32
  let main_v10 : FVec F S12x128x128x128 .f32 := broadcastInDim S12x128x128x128 ![] bcast_S_S12x128x128x128 main_cst_2
  let main_v11 : IVec S12x128x128x128 1 := cmpf .olt main_v9 main_v10
  let main_c_3 : IVec S_ 1 := constantI S_ 1 1#1
  let main_v12 : IVec S_ 1 := (fun x v => Host.reduce IntOp.andi x v reducesTo_S12x128x128x128_S_d0_1_2_3 h_S_) main_v11 main_c_3
  let main_v13 : IVec S_ 1 := andi main_v8 main_v12
  let main_v14 : FVec F S39x64 .f32 := Host.absf main_arg3
  let main_cst_4 : FVec F S_ .f32 := constant S_ .f32 0x7F800000#32
  let main_v15 : FVec F S39x64 .f32 := broadcastInDim S39x64 ![] bcast_S_S39x64 main_cst_4
  let main_v16 : IVec S39x64 1 := cmpf .olt main_v14 main_v15
  fn_part1 (F := F) main_arg4 main_arg5 main_arg6 main_arg7 main_arg8 main_v13 main_v16
-- ==== Kernel.lean ====
abbrev S1048576x3 : Shape := ⟨2, ![1048576, 3]⟩
abbrev S8192x3 : Shape := ⟨2, ![8192, 3]⟩
abbrev S12x128x128x128 : Shape := ⟨4, ![12, 128, 128, 128]⟩
abbrev S39x64 : Shape := ⟨2, ![39, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S1048576 : Shape := ⟨1, ![1048576]⟩
abbrev S3 : Shape := ⟨1, ![3]⟩
abbrev S_ : Shape := ⟨0, ![]⟩
abbrev S1x3 : Shape := ⟨2, ![1, 3]⟩
abbrev S1048576x1 : Shape := ⟨2, ![1048576, 1]⟩
abbrev S12x1048576 : Shape := ⟨2, ![12, 1048576]⟩
abbrev S1x1048576 : Shape := ⟨2, ![1, 1048576]⟩
abbrev S1048576x12 : Shape := ⟨2, ![1048576, 12]⟩
abbrev S4 : Shape := ⟨1, ![4]⟩
abbrev S8192x3x1 : Shape := ⟨3, ![8192, 3, 1]⟩
abbrev S1x1x4 : Shape := ⟨3, ![1, 1, 4]⟩
abbrev S8192x3x4 : Shape := ⟨3, ![8192, 3, 4]⟩
abbrev S8192x12 : Shape := ⟨2, ![8192, 12]⟩
abbrev S8192x27 : Shape := ⟨2, ![8192, 27]⟩
abbrev S1048576x27 : Shape := ⟨2, ![1048576, 27]⟩
abbrev S1048576x39 : Shape := ⟨2, ![1048576, 39]⟩
abbrev S1x64 : Shape := ⟨2, ![1, 64]⟩
abbrev S1x8 : Shape := ⟨2, ![1, 8]⟩
abbrev S1048576x8 : Shape := ⟨2, ![1048576, 8]⟩
abbrev S16384x39 : Shape := ⟨2, ![16384, 39]⟩
abbrev S16384x8 : Shape := ⟨2, ![16384, 8]⟩
abbrev S16384x64 : Shape := ⟨2, ![16384, 64]⟩

abbrev nBuf : Space → Nat
  | .hbm => 389
  | .vmem => 10
  | .smem => 0
  | _ => 0

abbrev hbmTy0_0 (i : Nat) : BufTy := match i % 128 with
  | 0 => ⟨S1048576x3, .f32⟩
  | 1 => ⟨S8192x3, .f32⟩
  | 2 => ⟨S12x128x128x128, .f32⟩
  | 3 => ⟨S39x64, .f32⟩
  | 4 => ⟨S64, .f32⟩
  | 5 => ⟨S64x64, .f32⟩
  | 6 => ⟨S64, .f32⟩
  | 7 => ⟨S64x8, .f32⟩
  | 8 => ⟨S8, .f32⟩
  | 9 => ⟨S1048576, .i32⟩
  | 10 => ⟨S3, .f32⟩
  | 11 => ⟨S3, .i32⟩
  | 12 => ⟨S_, .f32⟩
  | 13 => ⟨S3, .f32⟩
  | 14 => ⟨S3, .f32⟩
  | 15 => ⟨S1x3, .f32⟩
  | 16 => ⟨S1048576x3, .f32⟩
  | 17 => ⟨S1048576x3, .f32⟩
  | 18 => ⟨S1048576x3, .f32⟩
  | 19 => ⟨S1048576x3, .f32⟩
  | 20 => ⟨S_, .i32⟩
  | 21 => ⟨S3, .i32⟩
  | 22 => ⟨S3, .i32⟩
  | 23 => ⟨S1048576x3, .i32⟩
  | 24 => ⟨S_, .i32⟩
  | 25 => ⟨S_, .i32⟩
  | 26 => ⟨S1048576x3, .i32⟩
  | 27 => ⟨S1048576x3, .i32⟩
  | 28 => ⟨S1x3, .i32⟩
  | 29 => ⟨S1048576x3, .i32⟩
  | 30 => ⟨S1048576x3, .i32⟩
  | 31 => ⟨S_, .i32⟩
  | 32 => ⟨S1048576x3, .i32⟩
  | 33 => ⟨S1048576x3, .i32⟩
  | 34 => ⟨S_, .i32⟩
  | 35 => ⟨S_, .i32⟩
  | 36 => ⟨S1048576x3, .i32⟩
  | 37 => ⟨S1048576x3, .i32⟩
  | 38 => ⟨S1x3, .i32⟩
  | 39 => ⟨S1048576x3, .i32⟩
  | 40 => ⟨S1048576x3, .i32⟩
  | 41 => ⟨S1048576x1, .f32⟩
  | 42 => ⟨S1048576, .f32⟩
  | 43 => ⟨S1048576x1, .f32⟩
  | 44 => ⟨S1048576, .f32⟩
  | 45 => ⟨S1048576x1, .f32⟩
  | 46 => ⟨S1048576, .f32⟩
  | 47 => ⟨S_, .f32⟩
  | 48 => ⟨S1048576, .f32⟩
  | 49 => ⟨S1048576, .f32⟩
  | 50 => ⟨S_, .f32⟩
  | 51 => ⟨S1048576, .f32⟩
  | 52 => ⟨S1048576, .f32⟩
  | 53 => ⟨S_, .f32⟩
  | 54 => ⟨S1048576, .f32⟩
  | 55 => ⟨S1048576, .f32⟩
  | 56 => ⟨S1048576x1, .i32⟩
  | 57 => ⟨S1048576, .i32⟩
  | 58 => ⟨S1048576x1, .i32⟩
  | 59 => ⟨S1048576, .i32⟩
  | 60 => ⟨S1048576x1, .i32⟩
  | 61 => ⟨S1048576, .i32⟩
  | 62 => ⟨S_, .i32⟩
  | 63 => ⟨S1048576, .i32⟩
  | 64 => ⟨S1048576, .i1⟩
  | 65 => ⟨S_, .i32⟩
  | 66 => ⟨S1048576, .i32⟩
  | 67 => ⟨S1048576, .i32⟩
  | 68 => ⟨S1048576, .i32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S_, .i32⟩
  | 77 => ⟨S1048576, .i32⟩
  | 78 => ⟨S1048576, .i1⟩
  | 79 => ⟨S_, .i32⟩
  | 80 => ⟨S1048576, .i32⟩
  | 81 => ⟨S1048576, .i32⟩
  | 82 => ⟨S1048576, .i32⟩
  | 83 => ⟨S1048576x1, .i32⟩
  | 84 => ⟨S1048576x1, .i32⟩
  | 85 => ⟨S1048576x1, .i32⟩
  | 86 => ⟨S1048576x3, .i32⟩
  | 87 => ⟨S12x1048576, .f32⟩
  | 88 => ⟨S1048576, .f32⟩
  | 89 => ⟨S1048576, .f32⟩
  | 90 => ⟨S1x1048576, .f32⟩
  | 91 => ⟨S12x1048576, .f32⟩
  | 92 => ⟨S12x1048576, .f32⟩
  | 93 => ⟨S1048576x1, .i32⟩
  | 94 => ⟨S1048576, .i32⟩
  | 95 => ⟨S1048576x1, .i32⟩
  | 96 => ⟨S1048576, .i32⟩
  | 97 => ⟨S1048576x1, .i32⟩
  | 98 => ⟨S1048576, .i32⟩
  | 99 => ⟨S_, .i32⟩
  | 100 => ⟨S1048576, .i32⟩
  | 101 => ⟨S1048576, .i1⟩
  | 102 => ⟨S_, .i32⟩
  | 103 => ⟨S1048576, .i32⟩
  | 104 => ⟨S1048576, .i32⟩
  | 105 => ⟨S1048576, .i32⟩
  | 106 => ⟨S_, .i32⟩
  | 107 => ⟨S1048576, .i32⟩
  | 108 => ⟨S1048576, .i1⟩
  | 109 => ⟨S_, .i32⟩
  | 110 => ⟨S1048576, .i32⟩
  | 111 => ⟨S1048576, .i32⟩
  | 112 => ⟨S1048576, .i32⟩
  | 113 => ⟨S_, .i32⟩
  | 114 => ⟨S1048576, .i32⟩
  | 115 => ⟨S1048576, .i1⟩
  | 116 => ⟨S_, .i32⟩
  | 117 => ⟨S1048576, .i32⟩
  | 118 => ⟨S1048576, .i32⟩
  | 119 => ⟨S1048576, .i32⟩
  | 120 => ⟨S1048576x1, .i32⟩
  | 121 => ⟨S1048576x1, .i32⟩
  | 122 => ⟨S1048576x1, .i32⟩
  | 123 => ⟨S1048576x3, .i32⟩
  | 124 => ⟨S12x1048576, .f32⟩
  | 125 => ⟨S1048576, .f32⟩
  | 126 => ⟨S1048576, .f32⟩
  | 127 => ⟨S1x1048576, .f32⟩
  | _ => ⟨S1048576x3, .f32⟩

abbrev hbmTy0_1 (i : Nat) : BufTy := match i % 128 with
  | 0 => ⟨S12x1048576, .f32⟩
  | 1 => ⟨S12x1048576, .f32⟩
  | 2 => ⟨S12x1048576, .f32⟩
  | 3 => ⟨S1048576x1, .i32⟩
  | 4 => ⟨S1048576, .i32⟩
  | 5 => ⟨S1048576x1, .i32⟩
  | 6 => ⟨S1048576, .i32⟩
  | 7 => ⟨S1048576x1, .i32⟩
  | 8 => ⟨S1048576, .i32⟩
  | 9 => ⟨S_, .i32⟩
  | 10 => ⟨S1048576, .i32⟩
  | 11 => ⟨S1048576, .i1⟩
  | 12 => ⟨S_, .i32⟩
  | 13 => ⟨S1048576, .i32⟩
  | 14 => ⟨S1048576, .i32⟩
  | 15 => ⟨S1048576, .i32⟩
  | 16 => ⟨S_, .i32⟩
  | 17 => ⟨S1048576, .i32⟩
  | 18 => ⟨S1048576, .i1⟩
  | 19 => ⟨S_, .i32⟩
  | 20 => ⟨S1048576, .i32⟩
  | 21 => ⟨S1048576, .i32⟩
  | 22 => ⟨S1048576, .i32⟩
  | 23 => ⟨S_, .i32⟩
  | 24 => ⟨S1048576, .i32⟩
  | 25 => ⟨S1048576, .i1⟩
  | 26 => ⟨S_, .i32⟩
  | 27 => ⟨S1048576, .i32⟩
  | 28 => ⟨S1048576, .i32⟩
  | 29 => ⟨S1048576, .i32⟩
  | 30 => ⟨S1048576x1, .i32⟩
  | 31 => ⟨S1048576x1, .i32⟩
  | 32 => ⟨S1048576x1, .i32⟩
  | 33 => ⟨S1048576x3, .i32⟩
  | 34 => ⟨S12x1048576, .f32⟩
  | 35 => ⟨S1048576, .f32⟩
  | 36 => ⟨S1048576, .f32⟩
  | 37 => ⟨S1x1048576, .f32⟩
  | 38 => ⟨S12x1048576, .f32⟩
  | 39 => ⟨S12x1048576, .f32⟩
  | 40 => ⟨S12x1048576, .f32⟩
  | 41 => ⟨S1048576x1, .i32⟩
  | 42 => ⟨S1048576, .i32⟩
  | 43 => ⟨S1048576x1, .i32⟩
  | 44 => ⟨S1048576, .i32⟩
  | 45 => ⟨S1048576x1, .i32⟩
  | 46 => ⟨S1048576, .i32⟩
  | 47 => ⟨S_, .i32⟩
  | 48 => ⟨S1048576, .i32⟩
  | 49 => ⟨S1048576, .i1⟩
  | 50 => ⟨S_, .i32⟩
  | 51 => ⟨S1048576, .i32⟩
  | 52 => ⟨S1048576, .i32⟩
  | 53 => ⟨S1048576, .i32⟩
  | 54 => ⟨S_, .i32⟩
  | 55 => ⟨S1048576, .i32⟩
  | 56 => ⟨S1048576, .i1⟩
  | 57 => ⟨S_, .i32⟩
  | 58 => ⟨S1048576, .i32⟩
  | 59 => ⟨S1048576, .i32⟩
  | 60 => ⟨S1048576, .i32⟩
  | 61 => ⟨S_, .i32⟩
  | 62 => ⟨S1048576, .i32⟩
  | 63 => ⟨S1048576, .i1⟩
  | 64 => ⟨S_, .i32⟩
  | 65 => ⟨S1048576, .i32⟩
  | 66 => ⟨S1048576, .i32⟩
  | 67 => ⟨S1048576, .i32⟩
  | 68 => ⟨S1048576x1, .i32⟩
  | 69 => ⟨S1048576x1, .i32⟩
  | 70 => ⟨S1048576x1, .i32⟩
  | 71 => ⟨S1048576x3, .i32⟩
  | 72 => ⟨S12x1048576, .f32⟩
  | 73 => ⟨S1048576, .f32⟩
  | 74 => ⟨S1048576, .f32⟩
  | 75 => ⟨S1x1048576, .f32⟩
  | 76 => ⟨S12x1048576, .f32⟩
  | 77 => ⟨S12x1048576, .f32⟩
  | 78 => ⟨S12x1048576, .f32⟩
  | 79 => ⟨S1048576x1, .i32⟩
  | 80 => ⟨S1048576, .i32⟩
  | 81 => ⟨S1048576x1, .i32⟩
  | 82 => ⟨S1048576, .i32⟩
  | 83 => ⟨S1048576x1, .i32⟩
  | 84 => ⟨S1048576, .i32⟩
  | 85 => ⟨S_, .i32⟩
  | 86 => ⟨S1048576, .i32⟩
  | 87 => ⟨S1048576, .i1⟩
  | 88 => ⟨S_, .i32⟩
  | 89 => ⟨S1048576, .i32⟩
  | 90 => ⟨S1048576, .i32⟩
  | 91 => ⟨S1048576, .i32⟩
  | 92 => ⟨S_, .i32⟩
  | 93 => ⟨S1048576, .i32⟩
  | 94 => ⟨S1048576, .i1⟩
  | 95 => ⟨S_, .i32⟩
  | 96 => ⟨S1048576, .i32⟩
  | 97 => ⟨S1048576, .i32⟩
  | 98 => ⟨S1048576, .i32⟩
  | 99 => ⟨S_, .i32⟩
  | 100 => ⟨S1048576, .i32⟩
  | 101 => ⟨S1048576, .i1⟩
  | 102 => ⟨S_, .i32⟩
  | 103 => ⟨S1048576, .i32⟩
  | 104 => ⟨S1048576, .i32⟩
  | 105 => ⟨S1048576, .i32⟩
  | 106 => ⟨S1048576x1, .i32⟩
  | 107 => ⟨S1048576x1, .i32⟩
  | 108 => ⟨S1048576x1, .i32⟩
  | 109 => ⟨S1048576x3, .i32⟩
  | 110 => ⟨S12x1048576, .f32⟩
  | 111 => ⟨S1048576, .f32⟩
  | 112 => ⟨S1048576, .f32⟩
  | 113 => ⟨S1x1048576, .f32⟩
  | 114 => ⟨S12x1048576, .f32⟩
  | 115 => ⟨S12x1048576, .f32⟩
  | 116 => ⟨S12x1048576, .f32⟩
  | 117 => ⟨S1048576x1, .i32⟩
  | 118 => ⟨S1048576, .i32⟩
  | 119 => ⟨S1048576x1, .i32⟩
  | 120 => ⟨S1048576, .i32⟩
  | 121 => ⟨S1048576x1, .i32⟩
  | 122 => ⟨S1048576, .i32⟩
  | 123 => ⟨S_, .i32⟩
  | 124 => ⟨S1048576, .i32⟩
  | 125 => ⟨S1048576, .i1⟩
  | 126 => ⟨S_, .i32⟩
  | 127 => ⟨S1048576, .i32⟩
  | _ => ⟨S1048576x3, .f32⟩

abbrev hbmTy0_2 (i : Nat) : BufTy := match i % 128 with
  | 0 => ⟨S1048576, .i32⟩
  | 1 => ⟨S1048576, .i32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S_, .i32⟩
  | 10 => ⟨S1048576, .i32⟩
  | 11 => ⟨S1048576, .i1⟩
  | 12 => ⟨S_, .i32⟩
  | 13 => ⟨S1048576, .i32⟩
  | 14 => ⟨S1048576, .i32⟩
  | 15 => ⟨S1048576, .i32⟩
  | 16 => ⟨S1048576x1, .i32⟩
  | 17 => ⟨S1048576x1, .i32⟩
  | 18 => ⟨S1048576x1, .i32⟩
  | 19 => ⟨S1048576x3, .i32⟩
  | 20 => ⟨S12x1048576, .f32⟩
  | 21 => ⟨S1048576, .f32⟩
  | 22 => ⟨S1048576, .f32⟩
  | 23 => ⟨S1x1048576, .f32⟩
  | 24 => ⟨S12x1048576, .f32⟩
  | 25 => ⟨S12x1048576, .f32⟩
  | 26 => ⟨S12x1048576, .f32⟩
  | 27 => ⟨S1048576x1, .i32⟩
  | 28 => ⟨S1048576, .i32⟩
  | 29 => ⟨S1048576x1, .i32⟩
  | 30 => ⟨S1048576, .i32⟩
  | 31 => ⟨S1048576x1, .i32⟩
  | 32 => ⟨S1048576, .i32⟩
  | 33 => ⟨S_, .i32⟩
  | 34 => ⟨S1048576, .i32⟩
  | 35 => ⟨S1048576, .i1⟩
  | 36 => ⟨S_, .i32⟩
  | 37 => ⟨S1048576, .i32⟩
  | 38 => ⟨S1048576, .i32⟩
  | 39 => ⟨S1048576, .i32⟩
  | 40 => ⟨S_, .i32⟩
  | 41 => ⟨S1048576, .i32⟩
  | 42 => ⟨S1048576, .i1⟩
  | 43 => ⟨S_, .i32⟩
  | 44 => ⟨S1048576, .i32⟩
  | 45 => ⟨S1048576, .i32⟩
  | 46 => ⟨S1048576, .i32⟩
  | 47 => ⟨S_, .i32⟩
  | 48 => ⟨S1048576, .i32⟩
  | 49 => ⟨S1048576, .i1⟩
  | 50 => ⟨S_, .i32⟩
  | 51 => ⟨S1048576, .i32⟩
  | 52 => ⟨S1048576, .i32⟩
  | 53 => ⟨S1048576, .i32⟩
  | 54 => ⟨S1048576x1, .i32⟩
  | 55 => ⟨S1048576x1, .i32⟩
  | 56 => ⟨S1048576x1, .i32⟩
  | 57 => ⟨S1048576x3, .i32⟩
  | 58 => ⟨S12x1048576, .f32⟩
  | 59 => ⟨S1048576, .f32⟩
  | 60 => ⟨S1048576, .f32⟩
  | 61 => ⟨S1x1048576, .f32⟩
  | 62 => ⟨S12x1048576, .f32⟩
  | 63 => ⟨S12x1048576, .f32⟩
  | 64 => ⟨S12x1048576, .f32⟩
  | 65 => ⟨S1048576x1, .i32⟩
  | 66 => ⟨S1048576, .i32⟩
  | 67 => ⟨S1048576x1, .i32⟩
  | 68 => ⟨S1048576, .i32⟩
  | 69 => ⟨S1048576x1, .i32⟩
  | 70 => ⟨S1048576, .i32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i1⟩
  | 81 => ⟨S_, .i32⟩
  | 82 => ⟨S1048576, .i32⟩
  | 83 => ⟨S1048576, .i32⟩
  | 84 => ⟨S1048576, .i32⟩
  | 85 => ⟨S_, .i32⟩
  | 86 => ⟨S1048576, .i32⟩
  | 87 => ⟨S1048576, .i1⟩
  | 88 => ⟨S_, .i32⟩
  | 89 => ⟨S1048576, .i32⟩
  | 90 => ⟨S1048576, .i32⟩
  | 91 => ⟨S1048576, .i32⟩
  | 92 => ⟨S1048576x1, .i32⟩
  | 93 => ⟨S1048576x1, .i32⟩
  | 94 => ⟨S1048576x1, .i32⟩
  | 95 => ⟨S1048576x3, .i32⟩
  | 96 => ⟨S12x1048576, .f32⟩
  | 97 => ⟨S1048576, .f32⟩
  | 98 => ⟨S1048576, .f32⟩
  | 99 => ⟨S1x1048576, .f32⟩
  | 100 => ⟨S12x1048576, .f32⟩
  | 101 => ⟨S12x1048576, .f32⟩
  | 102 => ⟨S12x1048576, .f32⟩
  | 103 => ⟨S1048576x12, .f32⟩
  | 104 => ⟨S4, .i32⟩
  | 105 => ⟨S4, .f32⟩
  | 106 => ⟨S_, .f32⟩
  | 107 => ⟨S4, .f32⟩
  | 108 => ⟨S4, .f32⟩
  | 109 => ⟨S4, .f32⟩
  | 110 => ⟨S8192x3x1, .f32⟩
  | 111 => ⟨S1x1x4, .f32⟩
  | 112 => ⟨S8192x3x4, .f32⟩
  | 113 => ⟨S8192x3x4, .f32⟩
  | 114 => ⟨S8192x3x4, .f32⟩
  | 115 => ⟨S8192x12, .f32⟩
  | 116 => ⟨S8192x12, .f32⟩
  | 117 => ⟨S8192x12, .f32⟩
  | 118 => ⟨S8192x27, .f32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S1048576x1, .i32⟩
  | 127 => ⟨S1048576x27, .f32⟩
  | _ => ⟨S1048576x3, .f32⟩

abbrev hbmTy0_3 (i : Nat) : BufTy := match i % 128 with
  | 0 => ⟨S1048576x39, .f32⟩
  | 1 => ⟨S1x64, .f32⟩
  | 2 => ⟨S1x64, .f32⟩
  | 3 => ⟨S1x8, .f32⟩
  | 4 => ⟨S1048576x8, .f32⟩
  | _ => ⟨S1048576x3, .f32⟩

abbrev hbmTy (i : Nat) : BufTy := match i / 128 with
  | 0 => hbmTy0_0 i
  | 1 => hbmTy0_1 i
  | 2 => hbmTy0_2 i
  | 3 => hbmTy0_3 i
  | _ => ⟨S1048576x3, .f32⟩

abbrev bufTy : (tb : Table) → Fin (tcTables nBuf tb) → BufTy
  | .hbm, ⟨i, _⟩ => hbmTy i
  | .local _ .vmem, ⟨0, _⟩ => ⟨S16384x39, .f32⟩
  | .local _ .vmem, ⟨1, _⟩ => ⟨S16384x39, .f32⟩
  | .local _ .vmem, ⟨2, _⟩ => ⟨S39x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x8, .f32⟩
  | .local _ .vmem, ⟨7, _⟩ => ⟨S1x8, .f32⟩
  | .local _ .vmem, ⟨8, _⟩ => ⟨S16384x8, .f32⟩
  | .local _ .vmem, ⟨9, _⟩ => ⟨S16384x8, .f32⟩
  | _, _ => ⟨S1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_c : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v10 : Ref sig .tc := ⟨.hbm, 30, rfl⟩
abbrev main_c_3 : Ref sig .tc := ⟨.hbm, 31, rfl⟩
abbrev main_v11 : Ref sig .tc := ⟨.hbm, 32, rfl⟩
abbrev main_v12 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_5 : Ref sig .tc := ⟨.hbm, 47, rfl⟩
abbrev main_v20 : Ref sig .tc := ⟨.hbm, 48, rfl⟩
abbrev main_v21 : Ref sig .tc := ⟨.hbm, 49, rfl⟩
abbrev main_cst_6 : Ref sig .tc := ⟨.hbm, 50, rfl⟩
abbrev main_v22 : Ref sig .tc := ⟨.hbm, 51, rfl⟩
abbrev main_v23 : Ref sig .tc := ⟨.hbm, 52, rfl⟩
abbrev main_cst_7 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_8 : Ref sig .tc := ⟨.hbm, 62, rfl⟩
abbrev main_v32 : Ref sig .tc := ⟨.hbm, 63, rfl⟩
abbrev main_v33 : Ref sig .tc := ⟨.hbm, 64, rfl⟩
abbrev main_c_9 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_10 : Ref sig .tc := ⟨.hbm, 69, rfl⟩
abbrev main_v37 : Ref sig .tc := ⟨.hbm, 70, rfl⟩
abbrev main_v38 : Ref sig .tc := ⟨.hbm, 71, rfl⟩
abbrev main_c_11 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_12 : Ref sig .tc := ⟨.hbm, 76, rfl⟩
abbrev main_v42 : Ref sig .tc := ⟨.hbm, 77, rfl⟩
abbrev main_v43 : Ref sig .tc := ⟨.hbm, 78, rfl⟩
abbrev main_c_13 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_14 : Ref sig .tc := ⟨.hbm, 99, rfl⟩
abbrev main_v63 : Ref sig .tc := ⟨.hbm, 100, rfl⟩
abbrev main_v64 : Ref sig .tc := ⟨.hbm, 101, rfl⟩
abbrev main_c_15 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_16 : Ref sig .tc := ⟨.hbm, 106, rfl⟩
abbrev main_v68 : Ref sig .tc := ⟨.hbm, 107, rfl⟩
abbrev main_v69 : Ref sig .tc := ⟨.hbm, 108, rfl⟩
abbrev main_c_17 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_18 : Ref sig .tc := ⟨.hbm, 113, rfl⟩
abbrev main_v73 : Ref sig .tc := ⟨.hbm, 114, rfl⟩
abbrev main_v74 : Ref sig .tc := ⟨.hbm, 115, rfl⟩
abbrev main_c_19 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_20 : Ref sig .tc := ⟨.hbm, 137, rfl⟩
abbrev main_v95 : Ref sig .tc := ⟨.hbm, 138, rfl⟩
abbrev main_v96 : Ref sig .tc := ⟨.hbm, 139, rfl⟩
abbrev main_c_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_c_22 : Ref sig .tc := ⟨.hbm, 144, rfl⟩
abbrev main_v100 : Ref sig .tc := ⟨.hbm, 145, rfl⟩
abbrev main_v101 : Ref sig .tc := ⟨.hbm, 146, rfl⟩
abbrev main_c_23 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_24 : Ref sig .tc := ⟨.hbm, 151, rfl⟩
abbrev main_v105 : Ref sig .tc := ⟨.hbm, 152, rfl⟩
abbrev main_v106 : Ref sig .tc := ⟨.hbm, 153, rfl⟩
abbrev main_c_25 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_c_26 : Ref sig .tc := ⟨.hbm, 175, rfl⟩
abbrev main_v127 : Ref sig .tc := ⟨.hbm, 176, rfl⟩
abbrev main_v128 : Ref sig .tc := ⟨.hbm, 177, rfl⟩
abbrev main_c_27 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_c_28 : Ref sig .tc := ⟨.hbm, 182, rfl⟩
abbrev main_v132 : Ref sig .tc := ⟨.hbm, 183, rfl⟩
abbrev main_v133 : Ref sig .tc := ⟨.hbm, 184, rfl⟩
abbrev main_c_29 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_c_30 : Ref sig .tc := ⟨.hbm, 189, rfl⟩
abbrev main_v137 : Ref sig .tc := ⟨.hbm, 190, rfl⟩
abbrev main_v138 : Ref sig .tc := ⟨.hbm, 191, rfl⟩
abbrev main_c_31 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_c_32 : Ref sig .tc := ⟨.hbm, 213, rfl⟩
abbrev main_v159 : Ref sig .tc := ⟨.hbm, 214, rfl⟩
abbrev main_v160 : Ref sig .tc := ⟨.hbm, 215, rfl⟩
abbrev main_c_33 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_c_34 : Ref sig .tc := ⟨.hbm, 220, rfl⟩
abbrev main_v164 : Ref sig .tc := ⟨.hbm, 221, rfl⟩
abbrev main_v165 : Ref sig .tc := ⟨.hbm, 222, rfl⟩
abbrev main_c_35 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_c_36 : Ref sig .tc := ⟨.hbm, 227, rfl⟩
abbrev main_v169 : Ref sig .tc := ⟨.hbm, 228, rfl⟩
abbrev main_v170 : Ref sig .tc := ⟨.hbm, 229, rfl⟩
abbrev main_c_37 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_c_38 : Ref sig .tc := ⟨.hbm, 251, rfl⟩
abbrev main_v191 : Ref sig .tc := ⟨.hbm, 252, rfl⟩
abbrev main_v192 : Ref sig .tc := ⟨.hbm, 253, rfl⟩
abbrev main_c_39 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_c_40 : Ref sig .tc := ⟨.hbm, 258, rfl⟩
abbrev main_v196 : Ref sig .tc := ⟨.hbm, 259, rfl⟩
abbrev main_v197 : Ref sig .tc := ⟨.hbm, 260, rfl⟩
abbrev main_c_41 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_c_42 : Ref sig .tc := ⟨.hbm, 265, rfl⟩
abbrev main_v201 : Ref sig .tc := ⟨.hbm, 266, rfl⟩
abbrev main_v202 : Ref sig .tc := ⟨.hbm, 267, rfl⟩
abbrev main_c_43 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_c_44 : Ref sig .tc := ⟨.hbm, 289, rfl⟩
abbrev main_v223 : Ref sig .tc := ⟨.hbm, 290, rfl⟩
abbrev main_v224 : Ref sig .tc := ⟨.hbm, 291, rfl⟩
abbrev main_c_45 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_c_46 : Ref sig .tc := ⟨.hbm, 296, rfl⟩
abbrev main_v228 : Ref sig .tc := ⟨.hbm, 297, rfl⟩
abbrev main_v229 : Ref sig .tc := ⟨.hbm, 298, rfl⟩
abbrev main_c_47 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_c_48 : Ref sig .tc := ⟨.hbm, 303, rfl⟩
abbrev main_v233 : Ref sig .tc := ⟨.hbm, 304, rfl⟩
abbrev main_v234 : Ref sig .tc := ⟨.hbm, 305, rfl⟩
abbrev main_c_49 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_c_50 : Ref sig .tc := ⟨.hbm, 327, rfl⟩
abbrev main_v255 : Ref sig .tc := ⟨.hbm, 328, rfl⟩
abbrev main_v256 : Ref sig .tc := ⟨.hbm, 329, rfl⟩
abbrev main_c_51 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_c_52 : Ref sig .tc := ⟨.hbm, 334, rfl⟩
abbrev main_v260 : Ref sig .tc := ⟨.hbm, 335, rfl⟩
abbrev main_v261 : Ref sig .tc := ⟨.hbm, 336, rfl⟩
abbrev main_c_53 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_c_54 : Ref sig .tc := ⟨.hbm, 341, rfl⟩
abbrev main_v265 : Ref sig .tc := ⟨.hbm, 342, rfl⟩
abbrev main_v266 : Ref sig .tc := ⟨.hbm, 343, rfl⟩
abbrev main_c_55 : Ref sig .tc := ⟨.hbm, 344, rfl⟩
abbrev main_v267 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_cst_56 : Ref sig .tc := ⟨.hbm, 362, rfl⟩
abbrev main_v284 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_v290 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_c_57 : Ref sig .tc := ⟨.hbm, 375, rfl⟩
abbrev main_v296 : Ref sig .tc := ⟨.hbm, 376, rfl⟩
abbrev main_v297 : Ref sig .tc := ⟨.hbm, 377, rfl⟩
abbrev main_c_58 : Ref sig .tc := ⟨.hbm, 378, rfl⟩
abbrev main_v298 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x39 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S39x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16384x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S3 : S_.BroadcastsInDim S3 (![] : Fin 0 → Fin S3.rank)
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  bcast_S_S1048576x3 : S_.BroadcastsInDim S1048576x3 (![] : Fin 0 → Fin S1048576x3.rank)
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x1_S1048576x3_d1 : Shape.Concatenates [S1048576x1, S1048576x1, S1048576x1] S1048576x3 1
  bcast_S1048576_S1x1048576_1 : S1048576.BroadcastsInDim S1x1048576 (![1] : Fin 1 → Fin S1x1048576.rank)
  bcast_S1x1048576_S12x1048576_0_1 : S1x1048576.BroadcastsInDim S12x1048576 (![0, 1] : Fin 2 → Fin S12x1048576.rank)
  transposes_S12x1048576_S1048576x12_1_0 : S12x1048576.Transposes [1, 0] S1048576x12
  bcast_S_S4 : S_.BroadcastsInDim S4 (![] : Fin 0 → Fin S4.rank)
  bcast_S8192x3_S8192x3x1_0_1 : S8192x3.BroadcastsInDim S8192x3x1 (![0, 1] : Fin 2 → Fin S8192x3x1.rank)
  bcast_S4_S1x1x4_2 : S4.BroadcastsInDim S1x1x4 (![2] : Fin 1 → Fin S1x1x4.rank)
  bcast_S8192x3x1_S8192x3x4_0_1_2 : S8192x3x1.BroadcastsInDim S8192x3x4 (![0, 1, 2] : Fin 3 → Fin S8192x3x4.rank)
  bcast_S1x1x4_S8192x3x4_0_1_2 : S1x1x4.BroadcastsInDim S8192x3x4 (![0, 1, 2] : Fin 3 → Fin S8192x3x4.rank)
  shapeCasts_S8192x3x4_S8192x12 : S8192x3x4.ShapeCasts S8192x12
  concatenates_S8192x3_S8192x12_S8192x12_S8192x27_d1 : Shape.Concatenates [S8192x3, S8192x12, S8192x12] S8192x27 1
  concatenates_S1048576x12_S1048576x27_S1048576x39_d1 : Shape.Concatenates [S1048576x12, S1048576x27] S1048576x39 1
  shapeCasts_S64_S1x64 : S64.ShapeCasts S1x64
  shapeCasts_S8_S1x8 : S8.ShapeCasts S1x8
  inb_S16384x39_S16384x39_0_0 : ∀ a, (![0, 0] : Fin 2 → Nat) a + S16384x39.size a ≤ S16384x39.size a
  h_S16384x39 : 0 < S16384x39.numel
  shapeCasts_S16384x39_S16384x39 : S16384x39.ShapeCasts S16384x39
  bitsLt_bf16_f32 : FTy.bits .bf16 < FTy.bits .f32
  inb_S39x64_S39x64_0_0 : ∀ a, (![0, 0] : Fin 2 → Nat) a + S39x64.size a ≤ S39x64.size a
  h_S39x64 : 0 < S39x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  inb_S64x64_S64x64_0_0 : ∀ a, (![0, 0] : Fin 2 → Nat) a + S64x64.size a ≤ S64x64.size a
  h_S64x64 : 0 < S64x64.numel
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S16384x8 : S1x8.Broadcasts S16384x8
  inb_S16384x8_S16384x8_0_0 : ∀ a, (![0, 0] : Fin 2 → Nat) a + S16384x8.size a ≤ S16384x8.size a
  h_S16384x8 : 0 < S16384x8.numel
  gather_S12x128x128x128_S1048576x3_S12x1048576_0_123_n_n_123_1_12111_wf : GatherDims.WF S12x128x128x128 S1048576x3 S12x1048576 [0] [1, 2, 3] [] [1, 2, 3] [] 1 ![12, 1, 1, 1]
  gather_S8192x27_S1048576x1_S1048576x27_1_0_n_n_0_1_127_wf : GatherDims.WF S8192x27 S1048576x1 S1048576x27 [1] [0] [] [0] [] 1 ![1, 27]
  dot_S16384x39_S39x64_S16384x64_1_0_0_1_n_n_wf : DotDims.WF S16384x39 S39x64 S16384x64 [1] [0] [0] [1] [] []
  dot_S16384x64_S64x64_S16384x64_1_0_0_1_n_n_wf : DotDims.WF S16384x64 S64x64 S16384x64 [1] [0] [0] [1] [] []
  dot_S16384x64_S64x8_S16384x8_1_0_0_1_n_n_wf : DotDims.WF S16384x64 S64x8 S16384x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x39.size a ≤ S1048576x39.size a
  hwx0_0 : ∀ i : grid0.Coords, EltTy.bits .f32 = 32 ∨ (Rect.block (s := S1048576x39) S16384x39.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S39x64.size a ≤ S39x64.size a
  hwx0_1 : ∀ i : grid0.Coords, EltTy.bits .f32 = 32 ∨ (Rect.block (s := S39x64) S39x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x8.size a ≤ S64x8.size a
  hwx0_5 : ∀ i : grid0.Coords, EltTy.bits .f32 = 32 ∨ (Rect.block (s := S64x8) S64x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16384x8.size a ≤ S1048576x8.size a
  hwx0_7 : ∀ i : grid0.Coords, EltTy.bits .f32 = 32 ∨ (Rect.block (s := S1048576x8) S16384x8.size (cc0_transform_7 i) (hinb0_7 i)).WholeWords (EltTy.packing .f32)

variable [Facts₀]

def gather_S12x128x128x128_S1048576x3_S12x1048576_0_123_n_n_123_1_12111 : GatherDims S12x128x128x128 S1048576x3 S12x1048576 where
  offsetDims := [0]
  collapsedSliceDims := [1, 2, 3]
  operandBatchingDims := []
  startIndicesBatchingDims := []
  startIndexMap := [1, 2, 3]
  indexVectorDim := 1
  sliceSizes := ![12, 1, 1, 1]
  wf := gather_S12x128x128x128_S1048576x3_S12x1048576_0_123_n_n_123_1_12111_wf
def gather_S8192x27_S1048576x1_S1048576x27_1_0_n_n_0_1_127 : GatherDims S8192x27 S1048576x1 S1048576x27 where
  offsetDims := [1]
  collapsedSliceDims := [0]
  operandBatchingDims := []
  startIndicesBatchingDims := []
  startIndexMap := [0]
  indexVectorDim := 1
  sliceSizes := ![1, 27]
  wf := gather_S8192x27_S1048576x1_S1048576x27_1_0_n_n_0_1_127_wf
def dot_S16384x39_S39x64_S16384x64_1_0_0_1_n_n : DotDims S16384x39 S39x64 S16384x64 where
  lhsContracting := [1]
  rhsContracting := [0]
  lhsNonContracting := [0]
  rhsNonContracting := [1]
  lhsBatch := []
  rhsBatch := []
  wf := dot_S16384x39_S39x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x8_S16384x8_1_0_0_1_n_n : DotDims S16384x64 S64x8 S16384x8 where
  lhsContracting := [1]
  rhsContracting := [0]
  lhsNonContracting := [0]
  rhsNonContracting := [1]
  lhsBatch := []
  rhsBatch := []
  wf := dot_S16384x64_S64x8_S16384x8_1_0_0_1_n_n_wf

abbrev win0_0 : Pipeline.Window sig grid0 :=
  Pipeline.Window.ofSpec (Memref.whole main_v303) S16384x39.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S39x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v304) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v305) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v306) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v307) S16384x8.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x3 : Shape := ⟨2, ![1048576, 3]⟩
abbrev S8192x3 : Shape := ⟨2, ![8192, 3]⟩
abbrev S12x128x128x128 : Shape := ⟨4, ![12, 128, 128, 128]⟩
abbrev S39x64 : Shape := ⟨2, ![39, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S1048576 : Shape := ⟨1, ![1048576]⟩
abbrev S3 : Shape := ⟨1, ![3]⟩
abbrev S_ : Shape := ⟨0, ![]⟩
abbrev S1x3 : Shape := ⟨2, ![1, 3]⟩
abbrev S1048576x1 : Shape := ⟨2, ![1048576, 1]⟩
abbrev S12x1048576 : Shape := ⟨2, ![12, 1048576]⟩
abbrev S1x1048576 : Shape := ⟨2, ![1, 1048576]⟩
abbrev S1048576x12 : Shape := ⟨2, ![1048576, 12]⟩
abbrev S4 : Shape := ⟨1, ![4]⟩
abbrev S8192x3x1 : Shape := ⟨3, ![8192, 3, 1]⟩
abbrev S1x1x4 : Shape := ⟨3, ![1, 1, 4]⟩
abbrev S8192x3x4 : Shape := ⟨3, ![8192, 3, 4]⟩
abbrev S8192x12 : Shape := ⟨2, ![8192, 12]⟩
abbrev S8192x27 : Shape := ⟨2, ![8192, 27]⟩
abbrev S1048576x27 : Shape := ⟨2, ![1048576, 27]⟩
abbrev S1048576x39 : Shape := ⟨2, ![1048576, 39]⟩
abbrev S1048576x64 : Shape := ⟨2, ![1048576, 64]⟩
abbrev S1x64 : Shape := ⟨2, ![1, 64]⟩
abbrev S1048576x8 : Shape := ⟨2, ![1048576, 8]⟩
abbrev S1x8 : Shape := ⟨2, ![1, 8]⟩

abbrev nBuf : Space → Nat
  | .hbm => 403
  | .vmem => 0
  | .smem => 0
  | _ => 0

abbrev hbmTy0_0 (i : Nat) : BufTy := match i % 128 with
  | 0 => ⟨S1048576x3, .f32⟩
  | 1 => ⟨S8192x3, .f32⟩
  | 2 => ⟨S12x128x128x128, .f32⟩
  | 3 => ⟨S39x64, .f32⟩
  | 4 => ⟨S64, .f32⟩
  | 5 => ⟨S64x64, .f32⟩
  | 6 => ⟨S64, .f32⟩
  | 7 => ⟨S64x8, .f32⟩
  | 8 => ⟨S8, .f32⟩
  | 9 => ⟨S1048576, .i32⟩
  | 10 => ⟨S3, .f32⟩
  | 11 => ⟨S3, .i32⟩
  | 12 => ⟨S_, .f32⟩
  | 13 => ⟨S3, .f32⟩
  | 14 => ⟨S3, .f32⟩
  | 15 => ⟨S1x3, .f32⟩
  | 16 => ⟨S1048576x3, .f32⟩
  | 17 => ⟨S1048576x3, .f32⟩
  | 18 => ⟨S1048576x3, .f32⟩
  | 19 => ⟨S1048576x3, .f32⟩
  | 20 => ⟨S_, .i32⟩
  | 21 => ⟨S3, .i32⟩
  | 22 => ⟨S3, .i32⟩
  | 23 => ⟨S1048576x3, .i32⟩
  | 24 => ⟨S_, .i32⟩
  | 25 => ⟨S_, .i32⟩
  | 26 => ⟨S1048576x3, .i32⟩
  | 27 => ⟨S1048576x3, .i32⟩
  | 28 => ⟨S1x3, .i32⟩
  | 29 => ⟨S1048576x3, .i32⟩
  | 30 => ⟨S1048576x3, .i32⟩
  | 31 => ⟨S_, .i32⟩
  | 32 => ⟨S1048576x3, .i32⟩
  | 33 => ⟨S1048576x3, .i32⟩
  | 34 => ⟨S_, .i32⟩
  | 35 => ⟨S_, .i32⟩
  | 36 => ⟨S1048576x3, .i32⟩
  | 37 => ⟨S1048576x3, .i32⟩
  | 38 => ⟨S1x3, .i32⟩
  | 39 => ⟨S1048576x3, .i32⟩
  | 40 => ⟨S1048576x3, .i32⟩
  | 41 => ⟨S1048576x1, .f32⟩
  | 42 => ⟨S1048576, .f32⟩
  | 43 => ⟨S1048576x1, .f32⟩
  | 44 => ⟨S1048576, .f32⟩
  | 45 => ⟨S1048576x1, .f32⟩
  | 46 => ⟨S1048576, .f32⟩
  | 47 => ⟨S_, .f32⟩
  | 48 => ⟨S1048576, .f32⟩
  | 49 => ⟨S1048576, .f32⟩
  | 50 => ⟨S_, .f32⟩
  | 51 => ⟨S1048576, .f32⟩
  | 52 => ⟨S1048576, .f32⟩
  | 53 => ⟨S_, .f32⟩
  | 54 => ⟨S1048576, .f32⟩
  | 55 => ⟨S1048576, .f32⟩
  | 56 => ⟨S1048576x1, .i32⟩
  | 57 => ⟨S1048576, .i32⟩
  | 58 => ⟨S1048576x1, .i32⟩
  | 59 => ⟨S1048576, .i32⟩
  | 60 => ⟨S1048576x1, .i32⟩
  | 61 => ⟨S1048576, .i32⟩
  | 62 => ⟨S_, .i32⟩
  | 63 => ⟨S1048576, .i32⟩
  | 64 => ⟨S1048576, .i1⟩
  | 65 => ⟨S_, .i32⟩
  | 66 => ⟨S1048576, .i32⟩
  | 67 => ⟨S1048576, .i32⟩
  | 68 => ⟨S1048576, .i32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S_, .i32⟩
  | 77 => ⟨S1048576, .i32⟩
  | 78 => ⟨S1048576, .i1⟩
  | 79 => ⟨S_, .i32⟩
  | 80 => ⟨S1048576, .i32⟩
  | 81 => ⟨S1048576, .i32⟩
  | 82 => ⟨S1048576, .i32⟩
  | 83 => ⟨S1048576x1, .i32⟩
  | 84 => ⟨S1048576x1, .i32⟩
  | 85 => ⟨S1048576x1, .i32⟩
  | 86 => ⟨S1048576x3, .i32⟩
  | 87 => ⟨S12x1048576, .f32⟩
  | 88 => ⟨S1048576, .f32⟩
  | 89 => ⟨S1048576, .f32⟩
  | 90 => ⟨S1x1048576, .f32⟩
  | 91 => ⟨S12x1048576, .f32⟩
  | 92 => ⟨S12x1048576, .f32⟩
  | 93 => ⟨S1048576x1, .i32⟩
  | 94 => ⟨S1048576, .i32⟩
  | 95 => ⟨S1048576x1, .i32⟩
  | 96 => ⟨S1048576, .i32⟩
  | 97 => ⟨S1048576x1, .i32⟩
  | 98 => ⟨S1048576, .i32⟩
  | 99 => ⟨S_, .i32⟩
  | 100 => ⟨S1048576, .i32⟩
  | 101 => ⟨S1048576, .i1⟩
  | 102 => ⟨S_, .i32⟩
  | 103 => ⟨S1048576, .i32⟩
  | 104 => ⟨S1048576, .i32⟩
  | 105 => ⟨S1048576, .i32⟩
  | 106 => ⟨S_, .i32⟩
  | 107 => ⟨S1048576, .i32⟩
  | 108 => ⟨S1048576, .i1⟩
  | 109 => ⟨S_, .i32⟩
  | 110 => ⟨S1048576, .i32⟩
  | 111 => ⟨S1048576, .i32⟩
  | 112 => ⟨S1048576, .i32⟩
  | 113 => ⟨S_, .i32⟩
  | 114 => ⟨S1048576, .i32⟩
  | 115 => ⟨S1048576, .i1⟩
  | 116 => ⟨S_, .i32⟩
  | 117 => ⟨S1048576, .i32⟩
  | 118 => ⟨S1048576, .i32⟩
  | 119 => ⟨S1048576, .i32⟩
  | 120 => ⟨S1048576x1, .i32⟩
  | 121 => ⟨S1048576x1, .i32⟩
  | 122 => ⟨S1048576x1, .i32⟩
  | 123 => ⟨S1048576x3, .i32⟩
  | 124 => ⟨S12x1048576, .f32⟩
  | 125 => ⟨S1048576, .f32⟩
  | 126 => ⟨S1048576, .f32⟩
  | 127 => ⟨S1x1048576, .f32⟩
  | _ => ⟨S1048576x3, .f32⟩

abbrev hbmTy0_1 (i : Nat) : BufTy := match i % 128 with
  | 0 => ⟨S12x1048576, .f32⟩
  | 1 => ⟨S12x1048576, .f32⟩
  | 2 => ⟨S12x1048576, .f32⟩
  | 3 => ⟨S1048576x1, .i32⟩
  | 4 => ⟨S1048576, .i32⟩
  | 5 => ⟨S1048576x1, .i32⟩
  | 6 => ⟨S1048576, .i32⟩
  | 7 => ⟨S1048576x1, .i32⟩
  | 8 => ⟨S1048576, .i32⟩
  | 9 => ⟨S_, .i32⟩
  | 10 => ⟨S1048576, .i32⟩
  | 11 => ⟨S1048576, .i1⟩
  | 12 => ⟨S_, .i32⟩
  | 13 => ⟨S1048576, .i32⟩
  | 14 => ⟨S1048576, .i32⟩
  | 15 => ⟨S1048576, .i32⟩
  | 16 => ⟨S_, .i32⟩
  | 17 => ⟨S1048576, .i32⟩
  | 18 => ⟨S1048576, .i1⟩
  | 19 => ⟨S_, .i32⟩
  | 20 => ⟨S1048576, .i32⟩
  | 21 => ⟨S1048576, .i32⟩
  | 22 => ⟨S1048576, .i32⟩
  | 23 => ⟨S_, .i32⟩
  | 24 => ⟨S1048576, .i32⟩
  | 25 => ⟨S1048576, .i1⟩
  | 26 => ⟨S_, .i32⟩
  | 27 => ⟨S1048576, .i32⟩
  | 28 => ⟨S1048576, .i32⟩
  | 29 => ⟨S1048576, .i32⟩
  | 30 => ⟨S1048576x1, .i32⟩
  | 31 => ⟨S1048576x1, .i32⟩
  | 32 => ⟨S1048576x1, .i32⟩
  | 33 => ⟨S1048576x3, .i32⟩
  | 34 => ⟨S12x1048576, .f32⟩
  | 35 => ⟨S1048576, .f32⟩
  | 36 => ⟨S1048576, .f32⟩
  | 37 => ⟨S1x1048576, .f32⟩
  | 38 => ⟨S12x1048576, .f32⟩
  | 39 => ⟨S12x1048576, .f32⟩
  | 40 => ⟨S12x1048576, .f32⟩
  | 41 => ⟨S1048576x1, .i32⟩
  | 42 => ⟨S1048576, .i32⟩
  | 43 => ⟨S1048576x1, .i32⟩
  | 44 => ⟨S1048576, .i32⟩
  | 45 => ⟨S1048576x1, .i32⟩
  | 46 => ⟨S1048576, .i32⟩
  | 47 => ⟨S_, .i32⟩
  | 48 => ⟨S1048576, .i32⟩
  | 49 => ⟨S1048576, .i1⟩
  | 50 => ⟨S_, .i32⟩
  | 51 => ⟨S1048576, .i32⟩
  | 52 => ⟨S1048576, .i32⟩
  | 53 => ⟨S1048576, .i32⟩
  | 54 => ⟨S_, .i32⟩
  | 55 => ⟨S1048576, .i32⟩
  | 56 => ⟨S1048576, .i1⟩
  | 57 => ⟨S_, .i32⟩
  | 58 => ⟨S1048576, .i32⟩
  | 59 => ⟨S1048576, .i32⟩
  | 60 => ⟨S1048576, .i32⟩
  | 61 => ⟨S_, .i32⟩
  | 62 => ⟨S1048576, .i32⟩
  | 63 => ⟨S1048576, .i1⟩
  | 64 => ⟨S_, .i32⟩
  | 65 => ⟨S1048576, .i32⟩
  | 66 => ⟨S1048576, .i32⟩
  | 67 => ⟨S1048576, .i32⟩
  | 68 => ⟨S1048576x1, .i32⟩
  | 69 => ⟨S1048576x1, .i32⟩
  | 70 => ⟨S1048576x1, .i32⟩
  | 71 => ⟨S1048576x3, .i32⟩
  | 72 => ⟨S12x1048576, .f32⟩
  | 73 => ⟨S1048576, .f32⟩
  | 74 => ⟨S1048576, .f32⟩
  | 75 => ⟨S1x1048576, .f32⟩
  | 76 => ⟨S12x1048576, .f32⟩
  | 77 => ⟨S12x1048576, .f32⟩
  | 78 => ⟨S12x1048576, .f32⟩
  | 79 => ⟨S1048576x1, .i32⟩
  | 80 => ⟨S1048576, .i32⟩
  | 81 => ⟨S1048576x1, .i32⟩
  | 82 => ⟨S1048576, .i32⟩
  | 83 => ⟨S1048576x1, .i32⟩
  | 84 => ⟨S1048576, .i32⟩
  | 85 => ⟨S_, .i32⟩
  | 86 => ⟨S1048576, .i32⟩
  | 87 => ⟨S1048576, .i1⟩
  | 88 => ⟨S_, .i32⟩
  | 89 => ⟨S1048576, .i32⟩
  | 90 => ⟨S1048576, .i32⟩
  | 91 => ⟨S1048576, .i32⟩
  | 92 => ⟨S_, .i32⟩
  | 93 => ⟨S1048576, .i32⟩
  | 94 => ⟨S1048576, .i1⟩
  | 95 => ⟨S_, .i32⟩
  | 96 => ⟨S1048576, .i32⟩
  | 97 => ⟨S1048576, .i32⟩
  | 98 => ⟨S1048576, .i32⟩
  | 99 => ⟨S_, .i32⟩
  | 100 => ⟨S1048576, .i32⟩
  | 101 => ⟨S1048576, .i1⟩
  | 102 => ⟨S_, .i32⟩
  | 103 => ⟨S1048576, .i32⟩
  | 104 => ⟨S1048576, .i32⟩
  | 105 => ⟨S1048576, .i32⟩
  | 106 => ⟨S1048576x1, .i32⟩
  | 107 => ⟨S1048576x1, .i32⟩
  | 108 => ⟨S1048576x1, .i32⟩
  | 109 => ⟨S1048576x3, .i32⟩
  | 110 => ⟨S12x1048576, .f32⟩
  | 111 => ⟨S1048576, .f32⟩
  | 112 => ⟨S1048576, .f32⟩
  | 113 => ⟨S1x1048576, .f32⟩
  | 114 => ⟨S12x1048576, .f32⟩
  | 115 => ⟨S12x1048576, .f32⟩
  | 116 => ⟨S12x1048576, .f32⟩
  | 117 => ⟨S1048576x1, .i32⟩
  | 118 => ⟨S1048576, .i32⟩
  | 119 => ⟨S1048576x1, .i32⟩
  | 120 => ⟨S1048576, .i32⟩
  | 121 => ⟨S1048576x1, .i32⟩
  | 122 => ⟨S1048576, .i32⟩
  | 123 => ⟨S_, .i32⟩
  | 124 => ⟨S1048576, .i32⟩
  | 125 => ⟨S1048576, .i1⟩
  | 126 => ⟨S_, .i32⟩
  | 127 => ⟨S1048576, .i32⟩
  | _ => ⟨S1048576x3, .f32⟩

abbrev hbmTy0_2 (i : Nat) : BufTy := match i % 128 with
  | 0 => ⟨S1048576, .i32⟩
  | 1 => ⟨S1048576, .i32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S_, .i32⟩
  | 10 => ⟨S1048576, .i32⟩
  | 11 => ⟨S1048576, .i1⟩
  | 12 => ⟨S_, .i32⟩
  | 13 => ⟨S1048576, .i32⟩
  | 14 => ⟨S1048576, .i32⟩
  | 15 => ⟨S1048576, .i32⟩
  | 16 => ⟨S1048576x1, .i32⟩
  | 17 => ⟨S1048576x1, .i32⟩
  | 18 => ⟨S1048576x1, .i32⟩
  | 19 => ⟨S1048576x3, .i32⟩
  | 20 => ⟨S12x1048576, .f32⟩
  | 21 => ⟨S1048576, .f32⟩
  | 22 => ⟨S1048576, .f32⟩
  | 23 => ⟨S1x1048576, .f32⟩
  | 24 => ⟨S12x1048576, .f32⟩
  | 25 => ⟨S12x1048576, .f32⟩
  | 26 => ⟨S12x1048576, .f32⟩
  | 27 => ⟨S1048576x1, .i32⟩
  | 28 => ⟨S1048576, .i32⟩
  | 29 => ⟨S1048576x1, .i32⟩
  | 30 => ⟨S1048576, .i32⟩
  | 31 => ⟨S1048576x1, .i32⟩
  | 32 => ⟨S1048576, .i32⟩
  | 33 => ⟨S_, .i32⟩
  | 34 => ⟨S1048576, .i32⟩
  | 35 => ⟨S1048576, .i1⟩
  | 36 => ⟨S_, .i32⟩
  | 37 => ⟨S1048576, .i32⟩
  | 38 => ⟨S1048576, .i32⟩
  | 39 => ⟨S1048576, .i32⟩
  | 40 => ⟨S_, .i32⟩
  | 41 => ⟨S1048576, .i32⟩
  | 42 => ⟨S1048576, .i1⟩
  | 43 => ⟨S_, .i32⟩
  | 44 => ⟨S1048576, .i32⟩
  | 45 => ⟨S1048576, .i32⟩
  | 46 => ⟨S1048576, .i32⟩
  | 47 => ⟨S_, .i32⟩
  | 48 => ⟨S1048576, .i32⟩
  | 49 => ⟨S1048576, .i1⟩
  | 50 => ⟨S_, .i32⟩
  | 51 => ⟨S1048576, .i32⟩
  | 52 => ⟨S1048576, .i32⟩
  | 53 => ⟨S1048576, .i32⟩
  | 54 => ⟨S1048576x1, .i32⟩
  | 55 => ⟨S1048576x1, .i32⟩
  | 56 => ⟨S1048576x1, .i32⟩
  | 57 => ⟨S1048576x3, .i32⟩
  | 58 => ⟨S12x1048576, .f32⟩
  | 59 => ⟨S1048576, .f32⟩
  | 60 => ⟨S1048576, .f32⟩
  | 61 => ⟨S1x1048576, .f32⟩
  | 62 => ⟨S12x1048576, .f32⟩
  | 63 => ⟨S12x1048576, .f32⟩
  | 64 => ⟨S12x1048576, .f32⟩
  | 65 => ⟨S1048576x1, .i32⟩
  | 66 => ⟨S1048576, .i32⟩
  | 67 => ⟨S1048576x1, .i32⟩
  | 68 => ⟨S1048576, .i32⟩
  | 69 => ⟨S1048576x1, .i32⟩
  | 70 => ⟨S1048576, .i32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i1⟩
  | 81 => ⟨S_, .i32⟩
  | 82 => ⟨S1048576, .i32⟩
  | 83 => ⟨S1048576, .i32⟩
  | 84 => ⟨S1048576, .i32⟩
  | 85 => ⟨S_, .i32⟩
  | 86 => ⟨S1048576, .i32⟩
  | 87 => ⟨S1048576, .i1⟩
  | 88 => ⟨S_, .i32⟩
  | 89 => ⟨S1048576, .i32⟩
  | 90 => ⟨S1048576, .i32⟩
  | 91 => ⟨S1048576, .i32⟩
  | 92 => ⟨S1048576x1, .i32⟩
  | 93 => ⟨S1048576x1, .i32⟩
  | 94 => ⟨S1048576x1, .i32⟩
  | 95 => ⟨S1048576x3, .i32⟩
  | 96 => ⟨S12x1048576, .f32⟩
  | 97 => ⟨S1048576, .f32⟩
  | 98 => ⟨S1048576, .f32⟩
  | 99 => ⟨S1x1048576, .f32⟩
  | 100 => ⟨S12x1048576, .f32⟩
  | 101 => ⟨S12x1048576, .f32⟩
  | 102 => ⟨S12x1048576, .f32⟩
  | 103 => ⟨S1048576x12, .f32⟩
  | 104 => ⟨S4, .i32⟩
  | 105 => ⟨S4, .f32⟩
  | 106 => ⟨S_, .f32⟩
  | 107 => ⟨S4, .f32⟩
  | 108 => ⟨S4, .f32⟩
  | 109 => ⟨S4, .f32⟩
  | 110 => ⟨S8192x3x1, .f32⟩
  | 111 => ⟨S1x1x4, .f32⟩
  | 112 => ⟨S8192x3x4, .f32⟩
  | 113 => ⟨S8192x3x4, .f32⟩
  | 114 => ⟨S8192x3x4, .f32⟩
  | 115 => ⟨S8192x12, .f32⟩
  | 116 => ⟨S8192x12, .f32⟩
  | 117 => ⟨S8192x12, .f32⟩
  | 118 => ⟨S8192x27, .f32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S1048576x1, .i32⟩
  | 127 => ⟨S1048576x27, .f32⟩
  | _ => ⟨S1048576x3, .f32⟩

abbrev hbmTy0_3 (i : Nat) : BufTy := match i % 128 with
  | 0 => ⟨S1048576x39, .f32⟩
  | 1 => ⟨S1048576x64, .f32⟩
  | 2 => ⟨S1x64, .f32⟩
  | 3 => ⟨S1048576x64, .f32⟩
  | 4 => ⟨S1048576x64, .f32⟩
  | 5 => ⟨S_, .f32⟩
  | 6 => ⟨S1048576x64, .f32⟩
  | 7 => ⟨S1048576x64, .f32⟩
  | 8 => ⟨S1048576x64, .f32⟩
  | 9 => ⟨S1x64, .f32⟩
  | 10 => ⟨S1048576x64, .f32⟩
  | 11 => ⟨S1048576x64, .f32⟩
  | 12 => ⟨S_, .f32⟩
  | 13 => ⟨S1048576x64, .f32⟩
  | 14 => ⟨S1048576x64, .f32⟩
  | 15 => ⟨S1048576x8, .f32⟩
  | 16 => ⟨S1x8, .f32⟩
  | 17 => ⟨S1048576x8, .f32⟩
  | 18 => ⟨S1048576x8, .f32⟩
  | _ => ⟨S1048576x3, .f32⟩

abbrev hbmTy (i : Nat) : BufTy := match i / 128 with
  | 0 => hbmTy0_0 i
  | 1 => hbmTy0_1 i
  | 2 => hbmTy0_2 i
  | 3 => hbmTy0_3 i
  | _ => ⟨S1048576x3, .f32⟩

abbrev bufTy : (tb : Table) → Fin (tcTables nBuf tb) → BufTy
  | .hbm, ⟨i, _⟩ => hbmTy i
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_c : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v10 : Ref sig .tc := ⟨.hbm, 30, rfl⟩
abbrev main_c_3 : Ref sig .tc := ⟨.hbm, 31, rfl⟩
abbrev main_v11 : Ref sig .tc := ⟨.hbm, 32, rfl⟩
abbrev main_v12 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_5 : Ref sig .tc := ⟨.hbm, 47, rfl⟩
abbrev main_v20 : Ref sig .tc := ⟨.hbm, 48, rfl⟩
abbrev main_v21 : Ref sig .tc := ⟨.hbm, 49, rfl⟩
abbrev main_cst_6 : Ref sig .tc := ⟨.hbm, 50, rfl⟩
abbrev main_v22 : Ref sig .tc := ⟨.hbm, 51, rfl⟩
abbrev main_v23 : Ref sig .tc := ⟨.hbm, 52, rfl⟩
abbrev main_cst_7 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_8 : Ref sig .tc := ⟨.hbm, 62, rfl⟩
abbrev main_v32 : Ref sig .tc := ⟨.hbm, 63, rfl⟩
abbrev main_v33 : Ref sig .tc := ⟨.hbm, 64, rfl⟩
abbrev main_c_9 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_10 : Ref sig .tc := ⟨.hbm, 69, rfl⟩
abbrev main_v37 : Ref sig .tc := ⟨.hbm, 70, rfl⟩
abbrev main_v38 : Ref sig .tc := ⟨.hbm, 71, rfl⟩
abbrev main_c_11 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_12 : Ref sig .tc := ⟨.hbm, 76, rfl⟩
abbrev main_v42 : Ref sig .tc := ⟨.hbm, 77, rfl⟩
abbrev main_v43 : Ref sig .tc := ⟨.hbm, 78, rfl⟩
abbrev main_c_13 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_14 : Ref sig .tc := ⟨.hbm, 99, rfl⟩
abbrev main_v63 : Ref sig .tc := ⟨.hbm, 100, rfl⟩
abbrev main_v64 : Ref sig .tc := ⟨.hbm, 101, rfl⟩
abbrev main_c_15 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_16 : Ref sig .tc := ⟨.hbm, 106, rfl⟩
abbrev main_v68 : Ref sig .tc := ⟨.hbm, 107, rfl⟩
abbrev main_v69 : Ref sig .tc := ⟨.hbm, 108, rfl⟩
abbrev main_c_17 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_18 : Ref sig .tc := ⟨.hbm, 113, rfl⟩
abbrev main_v73 : Ref sig .tc := ⟨.hbm, 114, rfl⟩
abbrev main_v74 : Ref sig .tc := ⟨.hbm, 115, rfl⟩
abbrev main_c_19 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_20 : Ref sig .tc := ⟨.hbm, 137, rfl⟩
abbrev main_v95 : Ref sig .tc := ⟨.hbm, 138, rfl⟩
abbrev main_v96 : Ref sig .tc := ⟨.hbm, 139, rfl⟩
abbrev main_c_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_c_22 : Ref sig .tc := ⟨.hbm, 144, rfl⟩
abbrev main_v100 : Ref sig .tc := ⟨.hbm, 145, rfl⟩
abbrev main_v101 : Ref sig .tc := ⟨.hbm, 146, rfl⟩
abbrev main_c_23 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_24 : Ref sig .tc := ⟨.hbm, 151, rfl⟩
abbrev main_v105 : Ref sig .tc := ⟨.hbm, 152, rfl⟩
abbrev main_v106 : Ref sig .tc := ⟨.hbm, 153, rfl⟩
abbrev main_c_25 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_c_26 : Ref sig .tc := ⟨.hbm, 175, rfl⟩
abbrev main_v127 : Ref sig .tc := ⟨.hbm, 176, rfl⟩
abbrev main_v128 : Ref sig .tc := ⟨.hbm, 177, rfl⟩
abbrev main_c_27 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_c_28 : Ref sig .tc := ⟨.hbm, 182, rfl⟩
abbrev main_v132 : Ref sig .tc := ⟨.hbm, 183, rfl⟩
abbrev main_v133 : Ref sig .tc := ⟨.hbm, 184, rfl⟩
abbrev main_c_29 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_c_30 : Ref sig .tc := ⟨.hbm, 189, rfl⟩
abbrev main_v137 : Ref sig .tc := ⟨.hbm, 190, rfl⟩
abbrev main_v138 : Ref sig .tc := ⟨.hbm, 191, rfl⟩
abbrev main_c_31 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_c_32 : Ref sig .tc := ⟨.hbm, 213, rfl⟩
abbrev main_v159 : Ref sig .tc := ⟨.hbm, 214, rfl⟩
abbrev main_v160 : Ref sig .tc := ⟨.hbm, 215, rfl⟩
abbrev main_c_33 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_c_34 : Ref sig .tc := ⟨.hbm, 220, rfl⟩
abbrev main_v164 : Ref sig .tc := ⟨.hbm, 221, rfl⟩
abbrev main_v165 : Ref sig .tc := ⟨.hbm, 222, rfl⟩
abbrev main_c_35 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_c_36 : Ref sig .tc := ⟨.hbm, 227, rfl⟩
abbrev main_v169 : Ref sig .tc := ⟨.hbm, 228, rfl⟩
abbrev main_v170 : Ref sig .tc := ⟨.hbm, 229, rfl⟩
abbrev main_c_37 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_c_38 : Ref sig .tc := ⟨.hbm, 251, rfl⟩
abbrev main_v191 : Ref sig .tc := ⟨.hbm, 252, rfl⟩
abbrev main_v192 : Ref sig .tc := ⟨.hbm, 253, rfl⟩
abbrev main_c_39 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_c_40 : Ref sig .tc := ⟨.hbm, 258, rfl⟩
abbrev main_v196 : Ref sig .tc := ⟨.hbm, 259, rfl⟩
abbrev main_v197 : Ref sig .tc := ⟨.hbm, 260, rfl⟩
abbrev main_c_41 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_c_42 : Ref sig .tc := ⟨.hbm, 265, rfl⟩
abbrev main_v201 : Ref sig .tc := ⟨.hbm, 266, rfl⟩
abbrev main_v202 : Ref sig .tc := ⟨.hbm, 267, rfl⟩
abbrev main_c_43 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_c_44 : Ref sig .tc := ⟨.hbm, 289, rfl⟩
abbrev main_v223 : Ref sig .tc := ⟨.hbm, 290, rfl⟩
abbrev main_v224 : Ref sig .tc := ⟨.hbm, 291, rfl⟩
abbrev main_c_45 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_c_46 : Ref sig .tc := ⟨.hbm, 296, rfl⟩
abbrev main_v228 : Ref sig .tc := ⟨.hbm, 297, rfl⟩
abbrev main_v229 : Ref sig .tc := ⟨.hbm, 298, rfl⟩
abbrev main_c_47 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_c_48 : Ref sig .tc := ⟨.hbm, 303, rfl⟩
abbrev main_v233 : Ref sig .tc := ⟨.hbm, 304, rfl⟩
abbrev main_v234 : Ref sig .tc := ⟨.hbm, 305, rfl⟩
abbrev main_c_49 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_c_50 : Ref sig .tc := ⟨.hbm, 327, rfl⟩
abbrev main_v255 : Ref sig .tc := ⟨.hbm, 328, rfl⟩
abbrev main_v256 : Ref sig .tc := ⟨.hbm, 329, rfl⟩
abbrev main_c_51 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_c_52 : Ref sig .tc := ⟨.hbm, 334, rfl⟩
abbrev main_v260 : Ref sig .tc := ⟨.hbm, 335, rfl⟩
abbrev main_v261 : Ref sig .tc := ⟨.hbm, 336, rfl⟩
abbrev main_c_53 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_c_54 : Ref sig .tc := ⟨.hbm, 341, rfl⟩
abbrev main_v265 : Ref sig .tc := ⟨.hbm, 342, rfl⟩
abbrev main_v266 : Ref sig .tc := ⟨.hbm, 343, rfl⟩
abbrev main_c_55 : Ref sig .tc := ⟨.hbm, 344, rfl⟩
abbrev main_v267 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_cst_56 : Ref sig .tc := ⟨.hbm, 362, rfl⟩
abbrev main_v284 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_v290 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_c_57 : Ref sig .tc := ⟨.hbm, 375, rfl⟩
abbrev main_v296 : Ref sig .tc := ⟨.hbm, 376, rfl⟩
abbrev main_v297 : Ref sig .tc := ⟨.hbm, 377, rfl⟩
abbrev main_c_58 : Ref sig .tc := ⟨.hbm, 378, rfl⟩
abbrev main_v298 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_call2_cst : Ref sig .tc := ⟨.hbm, 389, rfl⟩
abbrev main_call2_v0 : Ref sig .tc := ⟨.hbm, 390, rfl⟩
abbrev main_v308 : Ref sig .tc := ⟨.hbm, 391, rfl⟩
abbrev main_v309 : Ref sig .tc := ⟨.hbm, 392, rfl⟩
abbrev main_v310 : Ref sig .tc := ⟨.hbm, 393, rfl⟩
abbrev main_v311 : Ref sig .tc := ⟨.hbm, 394, rfl⟩
abbrev main_v312 : Ref sig .tc := ⟨.hbm, 395, rfl⟩
abbrev main_call3_cst : Ref sig .tc := ⟨.hbm, 396, rfl⟩
abbrev main_call3_v0 : Ref sig .tc := ⟨.hbm, 397, rfl⟩
abbrev main_v313 : Ref sig .tc := ⟨.hbm, 398, rfl⟩
abbrev main_v314 : Ref sig .tc := ⟨.hbm, 399, rfl⟩
abbrev main_v315 : Ref sig .tc := ⟨.hbm, 400, rfl⟩
abbrev main_v316 : Ref sig .tc := ⟨.hbm, 401, rfl⟩
abbrev main_v317 : Ref sig .tc := ⟨.hbm, 402, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  bcast_S_S1048576x3 : S_.BroadcastsInDim S1048576x3 (![] : Fin 0 → Fin S1048576x3.rank)
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x1_S1048576x3_d1 : Shape.Concatenates [S1048576x1, S1048576x1, S1048576x1] S1048576x3 1
  bcast_S1048576_S1x1048576_1 : S1048576.BroadcastsInDim S1x1048576 (![1] : Fin 1 → Fin S1x1048576.rank)
  bcast_S1x1048576_S12x1048576_0_1 : S1x1048576.BroadcastsInDim S12x1048576 (![0, 1] : Fin 2 → Fin S12x1048576.rank)
  transposes_S12x1048576_S1048576x12_1_0 : S12x1048576.Transposes [1, 0] S1048576x12
  bcast_S_S4 : S_.BroadcastsInDim S4 (![] : Fin 0 → Fin S4.rank)
  bcast_S8192x3_S8192x3x1_0_1 : S8192x3.BroadcastsInDim S8192x3x1 (![0, 1] : Fin 2 → Fin S8192x3x1.rank)
  bcast_S4_S1x1x4_2 : S4.BroadcastsInDim S1x1x4 (![2] : Fin 1 → Fin S1x1x4.rank)
  bcast_S8192x3x1_S8192x3x4_0_1_2 : S8192x3x1.BroadcastsInDim S8192x3x4 (![0, 1, 2] : Fin 3 → Fin S8192x3x4.rank)
  bcast_S1x1x4_S8192x3x4_0_1_2 : S1x1x4.BroadcastsInDim S8192x3x4 (![0, 1, 2] : Fin 3 → Fin S8192x3x4.rank)
  shapeCasts_S8192x3x4_S8192x12 : S8192x3x4.ShapeCasts S8192x12
  concatenates_S8192x3_S8192x12_S8192x12_S8192x27_d1 : Shape.Concatenates [S8192x3, S8192x12, S8192x12] S8192x27 1
  concatenates_S1048576x12_S1048576x27_S1048576x39_d1 : Shape.Concatenates [S1048576x12, S1048576x27] S1048576x39 1
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  gather_S12x128x128x128_S1048576x3_S12x1048576_0_123_n_n_123_1_12111_wf : GatherDims.WF S12x128x128x128 S1048576x3 S12x1048576 [0] [1, 2, 3] [] [1, 2, 3] [] 1 ![12, 1, 1, 1]
  gather_S8192x27_S1048576x1_S1048576x27_1_0_n_n_0_1_127_wf : GatherDims.WF S8192x27 S1048576x1 S1048576x27 [1] [0] [] [0] [] 1 ![1, 27]
  dot_S1048576x39_S39x64_S1048576x64_1_0_0_1_n_n_wf : DotDims.WF S1048576x39 S39x64 S1048576x64 [1] [0] [0] [1] [] []
  dot_S1048576x64_S64x64_S1048576x64_1_0_0_1_n_n_wf : DotDims.WF S1048576x64 S64x64 S1048576x64 [1] [0] [0] [1] [] []
  dot_S1048576x64_S64x8_S1048576x8_1_0_0_1_n_n_wf : DotDims.WF S1048576x64 S64x8 S1048576x8 [1] [0] [0] [1] [] []

variable [Facts₀]

def gather_S12x128x128x128_S1048576x3_S12x1048576_0_123_n_n_123_1_12111 : GatherDims S12x128x128x128 S1048576x3 S12x1048576 where
  offsetDims := [0]
  collapsedSliceDims := [1, 2, 3]
  operandBatchingDims := []
  startIndicesBatchingDims := []
  startIndexMap := [1, 2, 3]
  indexVectorDim := 1
  sliceSizes := ![12, 1, 1, 1]
  wf := gather_S12x128x128x128_S1048576x3_S12x1048576_0_123_n_n_123_1_12111_wf
def gather_S8192x27_S1048576x1_S1048576x27_1_0_n_n_0_1_127 : GatherDims S8192x27 S1048576x1 S1048576x27 where
  offsetDims := [1]
  collapsedSliceDims := [0]
  operandBatchingDims := []
  startIndicesBatchingDims := []
  startIndexMap := [0]
  indexVectorDim := 1
  sliceSizes := ![1, 27]
  wf := gather_S8192x27_S1048576x1_S1048576x27_1_0_n_n_0_1_127_wf
def dot_S1048576x39_S39x64_S1048576x64_1_0_0_1_n_n : DotDims S1048576x39 S39x64 S1048576x64 where
  lhsContracting := [1]
  rhsContracting := [0]
  lhsNonContracting := [0]
  rhsNonContracting := [1]
  lhsBatch := []
  rhsBatch := []
  wf := dot_S1048576x39_S39x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x8_S1048576x8_1_0_0_1_n_n : DotDims S1048576x64 S64x8 S1048576x8 where
  lhsContracting := [1]
  rhsContracting := [0]
  lhsNonContracting := [0]
  rhsNonContracting := [1]
  lhsBatch := []
  rhsBatch := []
  wf := dot_S1048576x64_S64x8_S1048576x8_1_0_0_1_n_n_wf

class Facts : Prop extends Facts₀ where

variable [Facts]
-- ==== Proof.KernelEntry.lean ====
/-
  The host head of `Kernel`'s @main and the entry into its one pipelined region.

  @main is 378 host operations in five stretches (the trilinear sample of the feature grid at the ray points, the
  sinusoidal encoding of the view directions gathered by ray index, their concatenation into the [1048576, 39]
  feature matrix, and the three bias vectors re-laid as rows), then the region that runs the three-layer
  perceptron over row blocks.  Here: the buffer contents the region finds (`V`: the fold of all five stretches over
  the launch memory), that no host operation allocates, and that @main is those stretches followed by the region.
-/
import proofs.«106331_j11544872091650_1_alg».proof.Proof.Gen.Kernel.Launch
import proofs.«106331_j11544872091650_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch memory after the five host stretches. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps0_3_fresh : (hostOps0_3 : List (HloOp τ sig (Elt F))).Forall fun op => op.fresh = ∅ := by
  simp only [List.Forall]; repeat' constructor
set_option maxHeartbeats 40000000 in
/-- No operation of this stretch allocates a buffer. -/
theorem hostOps0_4_fresh : (hostOps0_4 : List (HloOp τ sig (Elt F))).Forall fun op => op.fresh = ∅ := by
  simp only [List.Forall]; repeat' constructor

/-- @main is the five host stretches, in order, and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

end Cert.Kernel.Fr

end
-- ==== Proof.KernelArgsA.lean ====
/-
  The argument arrays of `Kernel` reach the region unchanged: every host operation writes its own result buffer,
  and none of those is an argument.
-/
import proofs.«106331_j11544872091650_1_alg».proof.Proof.KernelEntry

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 40000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

end Cert.Kernel.Fr

end
-- ==== Proof.KernelArgsB.lean ====
/-
  The argument arrays of `Kernel` reach the region unchanged: every host operation writes its own result buffer,
  and none of those is an argument.
-/
import proofs.«106331_j11544872091650_1_alg».proof.Proof.KernelEntry

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 40000000 in
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

end Cert.Kernel.Fr

end
-- ==== Proof.KernelBody.lean ====
/-
  One grid point of `Kernel`'s region: the body loads its seven input blocks whole (a [16384, 39] block of feature
  rows, the three weight matrices, the three bias rows), computes the three-layer perceptron of those rows, and
  stores the [16384, 8] result over the whole output block.  Here: what the output block holds afterwards, as a
  function of the input blocks, and the body's triple.
-/
import proofs.«106331_j11544872091650_1_alg».proof.Proof.Gen.Kernel.Launch
import proofs.«106331_j11544872091650_1_alg».proof.Proof.Gen.Kernel.Skeleton
import proofs.«106331_j11544872091650_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangle of the output block. -/
abbrev rOut : Rect S16384x8 := (Rect.unit (s := S16384x8) ![0, 0] S16384x8.size inb_S16384x8_S16384x8_0_0)

/-- The output block after the body, from the seven input blocks: the one store's value, the perceptron of the
    loaded blocks, written over the whole block. -/
def out0_7 (x0 : Vec F S16384x39 .f32) (x1 : Vec F S39x64 .f32) (x2 : Vec F S1x64 .f32) (x3 : Vec F S64x64 .f32) (x4 : Vec F S1x64 .f32) (x5 : Vec F S64x8 .f32) (x6 : Vec F S1x8 .f32) : Vec F S16384x8 .f32 :=
  View.canon [⟨rOut, k0_pay1 (View.ld x0 (Rect.unit (s := S16384x39) ![0, 0] S16384x39.size inb_S16384x39_S16384x39_0_0)) (View.ld x1 (Rect.unit (s := S39x64) ![0, 0] S39x64.size inb_S39x64_S39x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0)) (View.ld x5 (Rect.unit (s := S64x8) ![0, 0] S64x8.size inb_S64x8_S64x8_0_0)) (View.ld x6 (Rect.unit (s := S1x8) ![0, 0] S1x8.size inb_S1x8_S1x8_0_0))⟩]

/-- The one store covers the output block. -/
theorem cover0_7 (p0 : Vec F S16384x8 .f32) (y : S16384x8.Idx) :
    ∃ pc ∈ ([⟨rOut, p0⟩] : List (View.Piece (Elt F) S16384x8 .f32)), y ∈ pc.1.set :=
  View.cover_of_tiled [⟨rOut, p0⟩] S16384x8.size (by rfl) y

set_option maxHeartbeats 4000000 in
/-- The body on whole staging buffers, the inputs' at contents `xW` and the output's at anything, runs to the
    continuation with the inputs' as they were and the output's at `out0_7` of them. -/
theorem sound_kernel (c : Dev nD) (E : Set ℕ) (i : grid0.Coords)
    (arg0 : Memref sig .tc .vmem S16384x39 .f32) (harg0 : arg0.IsWhole) (arg1 : Memref sig .tc .vmem S39x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x8 .f32) (harg5 : arg5.IsWhole) (arg6 : Memref sig .tc .vmem S1x8 .f32) (harg6 : arg6.IsWhole) (arg7 : Memref sig .tc .vmem S16384x8 .f32) (harg7 : arg7.IsWhole)
    (x0 : Vec F S16384x39 .f32) (x1 : Vec F S39x64 .f32) (x2 : Vec F S1x64 .f32) (x3 : Vec F S64x64 .f32) (x4 : Vec F S1x64 .f32) (x5 : Vec F S64x8 .f32) (x6 : Vec F S1x8 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__mlp_kernel i arg0 harg0 arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

end Cert.Kernel.Fr

end
-- ==== Proof.KernelFrame.lean ====
/-
  The frame of `Kernel`: every weakly fair execution of @main terminates without a fault and leaves the ten
  argument arrays as launched.

  The proof data of the one region: each window's array is what the host head left in it; after the body at a
  grid point every input block is still its block of that array (the feature block moves with the point, the six
  weight and bias windows sit at block (0, 0) and are fetched once), and the output block is the perceptron of
  the input blocks.  The invariant is the scoped rest, untouched.  From the region's run, an argument that a
  window stages (the three weight matrices) is read back through its window, and the others are buffers no
  window touches.
-/
import proofs.«106331_j11544872091650_1_alg».proof.Proof.KernelEntry
import proofs.«106331_j11544872091650_1_alg».proof.Proof.KernelArgsA
import proofs.«106331_j11544872091650_1_alg».proof.Proof.KernelArgsB
import proofs.«106331_j11544872091650_1_alg».proof.Proof.KernelBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run of the region to the library's post: a staged argument through its window,
    an unstaged one as a buffer the region leaves alone. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).2 main_arg4 (Pipeline.mem_restRefs_of main_arg4 (by decide) (by decide))).trans (V_main_arg4 m c),
      ((h c).1 3).trans (((dats 0 c).arrAt_in 3 rfl _).trans ((hA c 3).trans (V_main_arg5 m c))),
      ((h c).2 main_arg6 (Pipeline.mem_restRefs_of main_arg6 (by decide) (by decide))).trans (V_main_arg6 m c),
      ((h c).1 5).trans (((dats 0 c).arrAt_in 5 rfl _).trans ((hA c 5).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of @main terminates, with every array of the
    region at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of `Kernel`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Fr

end
-- ==== Proof.KernelIdealEntry.lean ====
/-
  The host head of `KernelIdeal`'s @main and the entry into its one pipelined region.

  @main is 378 host operations in five stretches (the trilinear sample of the feature grid at the ray points, the
  sinusoidal encoding of the view directions gathered by ray index, their concatenation into the [1048576, 39]
  feature matrix, and the three bias vectors re-laid as rows), then the region that runs the three-layer
  perceptron over row blocks.  Here: the buffer contents the region finds (`V`: the fold of all five stretches over
  the launch memory), that no host operation allocates, and that @main is those stretches followed by the region.
-/
import proofs.«106331_j11544872091650_1_alg».proof.Proof.Gen.KernelIdeal.Launch
import proofs.«106331_j11544872091650_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch memory after the five host stretches. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps0_3_fresh : (hostOps0_3 : List (HloOp τ sig (Elt F))).Forall fun op => op.fresh = ∅ := by
  simp only [List.Forall]; repeat' constructor
set_option maxHeartbeats 40000000 in
/-- No operation of this stretch allocates a buffer. -/
theorem hostOps0_4_fresh : (hostOps0_4 : List (HloOp τ sig (Elt F))).Forall fun op => op.fresh = ∅ := by
  simp only [List.Forall]; repeat' constructor

/-- @main is the five host stretches, in order, and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

end Cert.KernelIdeal.Fr

end
-- ==== Proof.KernelIdealArgsA.lean ====
/-
  The argument arrays of `KernelIdeal` reach the region unchanged: every host operation writes its own result buffer,
  and none of those is an argument.
-/
import proofs.«106331_j11544872091650_1_alg».proof.Proof.KernelIdealEntry

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 40000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

end Cert.KernelIdeal.Fr

end
-- ==== Proof.KernelIdealArgsB.lean ====
/-
  The argument arrays of `KernelIdeal` reach the region unchanged: every host operation writes its own result buffer,
  and none of those is an argument.
-/
import proofs.«106331_j11544872091650_1_alg».proof.Proof.KernelIdealEntry

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 40000000 in
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

end Cert.KernelIdeal.Fr

end
-- ==== Proof.KernelIdealBody.lean ====
/-
  One grid point of `KernelIdeal`'s region: the body loads its seven input blocks whole (a [16384, 39] block of feature
  rows, the three weight matrices, the three bias rows), computes the three-layer perceptron of those rows, and
  stores the [16384, 8] result over the whole output block.  Here: what the output block holds afterwards, as a
  function of the input blocks, and the body's triple.
-/
import proofs.«106331_j11544872091650_1_alg».proof.Proof.Gen.KernelIdeal.Launch
import proofs.«106331_j11544872091650_1_alg».proof.Proof.Gen.KernelIdeal.Skeleton
import proofs.«106331_j11544872091650_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangle of the output block. -/
abbrev rOut : Rect S16384x8 := (Rect.unit (s := S16384x8) ![0, 0] S16384x8.size inb_S16384x8_S16384x8_0_0)

/-- The output block after the body, from the seven input blocks: the one store's value, the perceptron of the
    loaded blocks, written over the whole block. -/
def out0_7 (x0 : Vec F S16384x39 .f32) (x1 : Vec F S39x64 .f32) (x2 : Vec F S1x64 .f32) (x3 : Vec F S64x64 .f32) (x4 : Vec F S1x64 .f32) (x5 : Vec F S64x8 .f32) (x6 : Vec F S1x8 .f32) : Vec F S16384x8 .f32 :=
  View.canon [⟨rOut, k0_pay1 (View.ld x0 (Rect.unit (s := S16384x39) ![0, 0] S16384x39.size inb_S16384x39_S16384x39_0_0)) (View.ld x1 (Rect.unit (s := S39x64) ![0, 0] S39x64.size inb_S39x64_S39x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0)) (View.ld x5 (Rect.unit (s := S64x8) ![0, 0] S64x8.size inb_S64x8_S64x8_0_0)) (View.ld x6 (Rect.unit (s := S1x8) ![0, 0] S1x8.size inb_S1x8_S1x8_0_0))⟩]

/-- The one store covers the output block. -/
theorem cover0_7 (p0 : Vec F S16384x8 .f32) (y : S16384x8.Idx) :
    ∃ pc ∈ ([⟨rOut, p0⟩] : List (View.Piece (Elt F) S16384x8 .f32)), y ∈ pc.1.set :=
  View.cover_of_tiled [⟨rOut, p0⟩] S16384x8.size (by rfl) y

set_option maxHeartbeats 4000000 in
/-- The body on whole staging buffers, the inputs' at contents `xW` and the output's at anything, runs to the
    continuation with the inputs' as they were and the output's at `out0_7` of them. -/
theorem sound_kernel (c : Dev nD) (E : Set ℕ) (i : grid0.Coords)
    (arg0 : Memref sig .tc .vmem S16384x39 .f32) (harg0 : arg0.IsWhole) (arg1 : Memref sig .tc .vmem S39x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x8 .f32) (harg5 : arg5.IsWhole) (arg6 : Memref sig .tc .vmem S1x8 .f32) (harg6 : arg6.IsWhole) (arg7 : Memref sig .tc .vmem S16384x8 .f32) (harg7 : arg7.IsWhole)
    (x0 : Vec F S16384x39 .f32) (x1 : Vec F S39x64 .f32) (x2 : Vec F S1x64 .f32) (x3 : Vec F S64x64 .f32) (x4 : Vec F S1x64 .f32) (x5 : Vec F S64x8 .f32) (x6 : Vec F S1x8 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__mlp_kernel i arg0 harg0 arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

end Cert.KernelIdeal.Fr

end
-- ==== Proof.KernelIdealFrame.lean ====
/-
  The frame of `KernelIdeal`: every weakly fair execution of @main terminates without a fault and leaves the ten
  argument arrays as launched.

  The proof data of the one region: each window's array is what the host head left in it; after the body at a
  grid point every input block is still its block of that array (the feature block moves with the point, the six
  weight and bias windows sit at block (0, 0) and are fetched once), and the output block is the perceptron of
  the input blocks.  The invariant is the scoped rest, untouched.  From the region's run, an argument that a
  window stages (the three weight matrices) is read back through its window, and the others are buffers no
  window touches.
-/
import proofs.«106331_j11544872091650_1_alg».proof.Proof.KernelIdealEntry
import proofs.«106331_j11544872091650_1_alg».proof.Proof.KernelIdealArgsA
import proofs.«106331_j11544872091650_1_alg».proof.Proof.KernelIdealArgsB
import proofs.«106331_j11544872091650_1_alg».proof.Proof.KernelIdealBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run of the region to the library's post: a staged argument through its window,
    an unstaged one as a buffer the region leaves alone. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).2 main_arg4 (Pipeline.mem_restRefs_of main_arg4 (by decide) (by decide))).trans (V_main_arg4 m c),
      ((h c).1 3).trans (((dats 0 c).arrAt_in 3 rfl _).trans ((hA c 3).trans (V_main_arg5 m c))),
      ((h c).2 main_arg6 (Pipeline.mem_restRefs_of main_arg6 (by decide) (by decide))).trans (V_main_arg6 m c),
      ((h c).1 5).trans (((dats 0 c).arrAt_in 5 rfl _).trans ((hA c 5).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of @main terminates, with every array of the
    region at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of `KernelIdeal`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Fr

end
-- ==== Proof.RefRun.lean ====
/-
  The reference's run.  Its @main is a straight line of 393 host operations, so every weakly fair execution
  terminates, and each buffer ends at the fold of the operations' results over the launch memory (`W`).
-/
import proofs.«106331_j11544872091650_1_alg».proof.Proof.RefOpsP

set_option maxRecDepth 16384

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxHeartbeats 40000000 in
/-- No operation of the reference allocates a buffer. -/
theorem ops_fresh : (ops : List (HloOp τ sig (Elt F))).Forall fun op => op.fresh = ∅ := by
  simp only [List.Forall]; repeat' constructor

/-- Core `c`'s buffer `b` after the whole of @main. -/
abbrev W (m : (ℓ : Loc nD τ sig) → Buf (Elt F) ℓ) (c : Dev nD) (b : Ref sig .tc) : Buf (Elt F) ((c.tc : Thread nD τ).loc b) :=
  StableHlo.after ops (fun b => m (c, b)) (Proc.devRef .tc b)

/-- Every weakly fair execution of the reference terminates with every buffer at `W`. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = W m c b :=
  run_seq scopedRefs_eq scopedSems_eq defs main (fun _ => ops) main_eq (fun _ => ops_sub) m ρ
    (fun _ => List.forall_iff_forall_mem.mp ops_fresh)

end Cert.ReferenceIdeal.RefRun

end
-- ==== Proof.LibFoldRead.lean ====
/-
  Reading a fold of host operations back to the launch contents, one rewriting pass over the whole fold, past
  two spots where such a pass otherwise stops.

  (1) A concatenate holds its operands in a list of (shape, array) pairs, and a rewrite does not reach inside such a
  pair.  `join2` / `join3` are the concatenate of two / three pieces as an ordinary function of the pieces;
  `concatenate_two` / `concatenate_three` turn the one spelling into the other, by definition.
  (2) An operation with a literal family of three operand references (a three-piece `stablehlo.concatenate`) gives
  its result over `fun k => F (xs k)`, under whose binder no operand is a literal reference; `nary3_result'` states
  the result with each operand's contents at its own reference (the library has the four-operand form).

  `fold_read` is the library's one-pass reading of the operations' results with these added.
-/
import Idealize.ShloMosaic.Lib.StableHlo.Run

noncomputable section

namespace Cert.LibFoldRead

open Idealize.ShloMosaic Idealize.ShloMosaic.StableHlo

variable {α : Type}

/-- The concatenate of two pieces along axis `a`, as a function of the pieces. -/
def join2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- The concatenate of three pieces along axis `a`, as a function of the pieces. -/
def join3 (t : Shape) (a : Fin t.rank) (s₁ s₂ s₃ : Shape) (h : Shape.Concatenates [s₁, s₂, s₃] t a)
    (x₁ : s₁.Idx → α) (x₂ : s₂.Idx → α) (x₃ : s₃.Idx → α) : t.Idx → α :=
  concatenate t a [⟨s₁, x₁⟩, ⟨s₂, x₂⟩, ⟨s₃, x₃⟩] h

theorem concatenate_two (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = join2 t a s₁ s₂ h x₁ x₂ := rfl

theorem concatenate_three (t : Shape) (a : Fin t.rank) (s₁ s₂ s₃ : Shape) (x₁ : s₁.Idx → α) (x₂ : s₂.Idx → α)
    (x₃ : s₃.Idx → α) (h : Shape.Concatenates [s₁, s₂, s₃] t a) :
    concatenate t a [⟨s₁, x₁⟩, ⟨s₂, x₂⟩, ⟨s₃, x₃⟩] h = join3 t a s₁ s₂ s₃ h x₁ x₂ x₃ := rfl

section
variable {τ : Topo} {sig : RefSig} {Val : EltTy → Type} {x a b y : Ref sig .tc}

/-- An operation over a literal family of three references: the result with each operand's contents at its own
    reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl
end

/-- The third member of a literal family of three. -/
theorem cons3_two {β : Fin 3 → Sort _} (u : β 0) (v : β 1) (w : β 2) (e : (i : Fin 0) → β i.succ.succ.succ) :
    (Fin.cons u (Fin.cons v (Fin.cons w e)) : (i : Fin 3) → β i) 2 = w := rfl

/-- The one-pass reading of a fold's results, entering concatenates and three-operand operations.  (The generic
    several-operand result lemma is left out: it would leave the operands under a binder before the literal
    three- and four-operand forms are tried.) -/
macro "fold_read" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne',
      concatenate_two, concatenate_three, Fin.cons_zero, Fin.cons_one, cons3_two]))

end Cert.LibFoldRead

end
-- ==== Proof.HeadEq.lean ====
/-
  The two programs compute the feature matrix by the same 378 host operations (the trilinear sample of the grid
  at the ray points, the encoded view directions gathered by ray index, the two joined along the columns), so from
  argument arrays that agree the two feature matrices are one array.  Both are folds of their program's
  operations; read back to the argument arrays they are the same term, operation by operation.
-/
import proofs.«106331_j11544872091650_1_alg».proof.Proof.RefRun
import proofs.«106331_j11544872091650_1_alg».proof.Proof.KernelIdealEntry
import Idealize.ShloMosaic.PureOps.Ideal
import proofs.«106331_j11544872091650_1_alg».proof.Proof.LibFoldRead

set_option maxRecDepth 16384

noncomputable section

namespace Cert.Bridge

open Idealize.ShloMosaic Idealize.ShloMosaic.TcCoe Idealize.SL.Sem Idealize.ShloMosaic.StableHlo Cert.LibFoldRead

set_option maxHeartbeats 80000000 in
set_option backward.isDefEq.respectTransparency.types false in
/-- The feature matrix the reference's head leaves is the one the kernel's region finds. -/
theorem feat_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.RefRun.W m' c Cert.ReferenceIdeal.main_v303 = Cert.KernelIdeal.Fr.V m c Cert.KernelIdeal.main_v303 := by
  have e0 : m' (c, Proc.devRef .tc Cert.ReferenceIdeal.main_arg0) = m (c, Proc.devRef .tc Cert.KernelIdeal.main_arg0) := h0
  have e1 : m' (c, Proc.devRef .tc Cert.ReferenceIdeal.main_arg1) = m (c, Proc.devRef .tc Cert.KernelIdeal.main_arg1) := h1
  have e2 : m' (c, Proc.devRef .tc Cert.ReferenceIdeal.main_arg2) = m (c, Proc.devRef .tc Cert.KernelIdeal.main_arg2) := h2
  have e9 : m' (c, Proc.devRef .tc Cert.ReferenceIdeal.main_arg9) = m (c, Proc.devRef .tc Cert.KernelIdeal.main_arg9) := h9
  dsimp only [Cert.KernelIdeal.Fr.V, Cert.ReferenceIdeal.RefRun.W]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, List.flatten_cons, List.flatten_nil, List.append_nil, List.cons_append,
    List.nil_append]
  fold_read
  rw [e0, e1, e2, e9]
  rfl

end Cert.Bridge

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.LibBroadcasts.lean ====
/-
  The small broadcasts and the one reshape the graph convolution's host arithmetic uses, read at an index, for any
  sizes: a vector as a one-column matrix, a one-column matrix spread over C columns, a scalar spread over any shape, a
  vector as a one-row matrix (as a broadcast and as a reshape), a one-row matrix spread over N rows.
-/
import Idealize.ShloMosaic.Lib.Pipeline.Value
import Idealize.ShloMosaic.Lib.ValueIdx

noncomputable section

namespace Cert.LibBroadcasts

open Idealize.ShloMosaic Idealize.ShloMosaic.ValueIdx

variable {α : Type}

/-- A [K] vector broadcast to a [K, 1] column, read at (e, 0), is the vector at e. -/
theorem column_apply {K : Nat} (h : (⟨1, ![K]⟩ : Shape).BroadcastsInDim ⟨2, ![K, 1]⟩ ![0])
    (y : (⟨1, ![K]⟩ : Shape).Idx → α) (e : Fin K) (z : Fin 1) :
    broadcastInDim ⟨2, ![K, 1]⟩ ![0] h y (ix2 e z) = y (ix1 e) :=
  broadcastInDim_apply _ h y _ _ (fun a => match a with
    | ⟨0, _⟩ => by
      have := e.isLt
      show e.val = if K = 1 then 0 else e.val
      split <;> omega)

/-- A [K, 1] column broadcast over C columns, read at (e, k), is the column at (e, 0). -/
theorem spread_apply {K C : Nat} (h : (⟨2, ![K, 1]⟩ : Shape).BroadcastsInDim ⟨2, ![K, C]⟩ ![0, 1])
    (y : (⟨2, ![K, 1]⟩ : Shape).Idx → α) (e : Fin K) (k : Fin C) :
    broadcastInDim ⟨2, ![K, C]⟩ ![0, 1] h y (ix2 e k) = y (ix2 e 0) :=
  broadcastInDim_apply _ h y _ _ (fun a => match a with
    | ⟨0, _⟩ => by
      have := e.isLt
      show e.val = if K = 1 then 0 else e.val
      split <;> omega
    | ⟨1, _⟩ => by show 0 = if (1 : Nat) = 1 then 0 else k.val; rw [if_pos rfl])

/-- A scalar broadcast to any shape is the scalar everywhere. -/
theorem scalar_apply {t : Shape} (h : (⟨0, ![]⟩ : Shape).BroadcastsInDim t ![])
    (y : (⟨0, ![]⟩ : Shape).Idx → α) (j : t.Idx) :
    broadcastInDim t ![] h y j = y (fun a => a.elim0) :=
  broadcastInDim_apply _ h y _ _ (fun a => a.elim0)

/-- A [C] vector broadcast to a [1, C] row, read at (0, k), is the vector at k. -/
theorem row_apply {C : Nat} (h : (⟨1, ![C]⟩ : Shape).BroadcastsInDim ⟨2, ![1, C]⟩ ![1])
    (y : (⟨1, ![C]⟩ : Shape).Idx → α) (z : Fin 1) (k : Fin C) :
    broadcastInDim ⟨2, ![1, C]⟩ ![1] h y (ix2 z k) = y (ix1 k) :=
  broadcastInDim_apply _ h y _ _ (fun a => match a with
    | ⟨0, _⟩ => by
      have := k.isLt
      show k.val = if C = 1 then 0 else k.val
      split <;> omega)

/-- A [1, C] row broadcast over N rows, read at (i, k), is the row at (0, k). -/
theorem rows_apply {N C : Nat} (h : (⟨2, ![1, C]⟩ : Shape).BroadcastsInDim ⟨2, ![N, C]⟩ ![0, 1])
    (y : (⟨2, ![1, C]⟩ : Shape).Idx → α) (i : Fin N) (k : Fin C) :
    broadcastInDim ⟨2, ![N, C]⟩ ![0, 1] h y (ix2 i k) = y (ix2 0 k) :=
  broadcastInDim_apply _ h y _ _ (fun a => match a with
    | ⟨0, _⟩ => by show 0 = if (1 : Nat) = 1 then 0 else i.val; rw [if_pos rfl]
    | ⟨1, _⟩ => by
      have := k.isLt
      show k.val = if C = 1 then 0 else k.val
      split <;> omega)

/-- A [C] vector reshaped to a [1, C] row, read at (0, k), is the vector at k. -/
theorem row_cast_apply {C : Nat} (h : (⟨1, ![C]⟩ : Shape).ShapeCasts ⟨2, ![1, C]⟩)
    (y : (⟨1, ![C]⟩ : Shape).Idx → α) (z : Fin 1) (k : Fin C) :
    shapeCast ⟨2, ![1, C]⟩ y h (ix2 z k) = y (ix1 k) :=
  shapeCast_apply y h (ix2 z k) (ix1 k) (by
    rewrite [Shape.rowMajor_val_two, Shape.rowMajor_val_one]
    have := z.isLt
    show k.val = z.val * C + k.val
    have hz : z.val = 0 := by omega
    rw [hz]; omega)

end Cert.LibBroadcasts

end
-- ==== Proof.MlpSpec.lean ====
/-
  The three-layer perceptron, one row at a time, and one affine layer read at an entry.

  A layer sends a row `x` of `K` numbers to the `N` numbers `∑ k, x k · w k n + b n`.  The perceptron of a feature
  row is layer 0, the maximum with `z`, layer 1, the maximum with `z`, layer 2 (`z` is the zero of the rectifier; it
  is kept as a parameter, the same number on both sides, and never evaluated).  Every number is an extended real;
  nothing here distributes a product over a sum or cancels, so no finiteness is needed.

  The kernel spells a layer on an [R, K] block as a product into a zero accumulator, of the operands rounded to
  bf16 (the identity at the ideal instance), plus the bias row [1, N] repeated over the rows; the host spells it as a
  `dot_general` plus the bias vector [N] laid as a row and repeated over the rows.  Read at entry (p, n), both are
  the layer of row `p`.
-/
import Idealize.ShloMosaic.PureOps.Ideal.Laws
import Idealize.ShloMosaic.Lib.ValueIdx
import Idealize.ShloMosaic.Lib.ValueLayout
import Idealize.ShloMosaic.Lib.Pipeline.Value
import proofs.«106331_j11544872091650_1_alg».proof.Proof.LibPlainMatmul
import proofs.«106331_j11544872091650_1_alg».proof.Proof.LibBroadcasts

noncomputable section

namespace Cert.Mlp

open Idealize.ShloMosaic Idealize.ShloMosaic.ValueIdx
open scoped BigOperators

/-- One affine layer at output unit `n`. -/
def layer {K N : ℕ} (x : Fin K → EReal) (w : Fin K → Fin N → EReal) (b : Fin N → EReal) (n : Fin N) : EReal :=
  (∑ k : Fin K, x k * w k n) + b n

/-- The perceptron of one feature row, at output unit `c`. -/
def mlpRow (z : EReal) (x : Fin 39 → EReal) (w0 : Fin 39 → Fin 64 → EReal) (b0 : Fin 64 → EReal)
    (w1 : Fin 64 → Fin 64 → EReal) (b1 : Fin 64 → EReal) (w2 : Fin 64 → Fin 8 → EReal) (b2 : Fin 8 → EReal) (c : Fin 8) : EReal :=
  layer (fun k => max (layer (fun k' => max (layer x w0 b0 k') z) w1 b1 k) z) w2 b2 c

/-- The zero of the rectifier, as the programs write it. -/
def zr : EReal := Ideal.ofBits .f32 0x00000000#32

/-- The whole result: row `i 0` of the feature matrix through the perceptron, at unit `i 1`. -/
def G (feat : (⟨2, ![1048576, 39]⟩ : Shape).Idx → EReal) (w0 : (⟨2, ![39, 64]⟩ : Shape).Idx → EReal) (b0 : (⟨1, ![64]⟩ : Shape).Idx → EReal)
    (w1 : (⟨2, ![64, 64]⟩ : Shape).Idx → EReal) (b1 : (⟨1, ![64]⟩ : Shape).Idx → EReal)
    (w2 : (⟨2, ![64, 8]⟩ : Shape).Idx → EReal) (b2 : (⟨1, ![8]⟩ : Shape).Idx → EReal) : (⟨2, ![1048576, 8]⟩ : Shape).Idx → EReal :=
  fun i => mlpRow zr (fun j => feat (ix2 (i 0) j)) (fun k n => w0 (ix2 k n)) (fun n => b0 (ix1 n))
    (fun k n => w1 (ix2 k n)) (fun n => b1 (ix1 n)) (fun k n => w2 (ix2 k n)) (fun n => b2 (ix1 n)) (i 1)

/-- The kernel's layer on an [R, K] block, at entry (p, n). -/
theorem kernel_layer_apply (R K N : ℕ) (X : FVec Ideal ⟨2, ![R, K]⟩ .f32) (W : FVec Ideal ⟨2, ![K, N]⟩ .f32)
    (b : FVec Ideal ⟨2, ![1, N]⟩ .f32) (hX : FTy.bf16.bits < FTy.f32.bits) (hW : FTy.bf16.bits < FTy.f32.bits)
    (hs : (⟨2, ![1, N]⟩ : Shape).ShapeCasts ⟨2, ![1, N]⟩) (hb : (⟨2, ![1, N]⟩ : Shape).Broadcasts ⟨2, ![R, N]⟩)
    (p : Fin R) (n : Fin N) :
    addf (matmul (DotDims.plain R K N) none (truncf .bf16 X hX) (truncf .bf16 W hW) (constant (F := Ideal) ⟨2, ![R, N]⟩ .f32 0x00000000#32))
        (broadcastTo ⟨2, ![R, N]⟩ (shapeCast ⟨2, ![1, N]⟩ b hs) hb) (ix2 p n)
      = layer (fun k => X (ix2 p k)) (fun k n => W (ix2 k n)) (fun n => b (ix2 0 n)) n := by
  rw [addf_apply, Cert.LibPlainMatmul.matmul_zero_apply, broadcastTo_1b_ab_apply, shapeCast_self]
  rfl

/-- The host's layer on [R, K] rows, at entry (p, n). -/
theorem host_layer_apply (R K N : ℕ) (X : FVec Ideal ⟨2, ![R, K]⟩ .f32) (W : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![R, N]⟩ ![0, 1]) (p : Fin R) (n : Fin N) :
    addf (Host.dotGeneral (DotDims.plain R K N) none X W)
        (broadcastInDim ⟨2, ![R, N]⟩ ![0, 1] h2 (broadcastInDim ⟨2, ![1, N]⟩ ![1] h1 b)) (ix2 p n)
      = layer (fun k => X (ix2 p k)) (fun k n => W (ix2 k n)) (fun n => b (ix1 n)) n := by
  rw [addf_apply, Cert.LibPlainMatmul.dotGeneral_apply, Cert.LibBroadcasts.rows_apply, Cert.LibBroadcasts.row_apply]
  rfl

end Cert.Mlp

end
-- ==== Proof.RefTail.lean ====
/-
  The reference's last fifteen operations: three times a product with a weight matrix plus the bias vector laid
  over the rows, the first two followed by the maximum with zero.  As one function `hostTail` of the feature matrix
  and the six parameter arrays it is what the result buffer ends holding, and read at entry (p, c) it is the
  perceptron of feature row `p` at unit `c`.
-/
import proofs.«106331_j11544872091650_1_alg».proof.Proof.RefRun
import proofs.«106331_j11544872091650_1_alg».proof.Proof.MlpSpec

set_option maxRecDepth 16384

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo
open Idealize.ShloMosaic.ValueIdx

/-- The zero the rectifier compares with, spread over the rows. -/
abbrev zeros64 : FVec Ideal S1048576x64 .f32 :=
  broadcastInDim S1048576x64 ![] bcast_S_S1048576x64 (constant (F := Ideal) S_ .f32 0x00000000#32)

/-- The three layers as the reference computes them. -/
def hostTail (feat : FVec Ideal S1048576x39 .f32) (w0 : FVec Ideal S39x64 .f32) (b0 : FVec Ideal S64 .f32)
    (w1 : FVec Ideal S64x64 .f32) (b1 : FVec Ideal S64 .f32) (w2 : FVec Ideal S64x8 .f32) (b2 : FVec Ideal S8 .f32) :
    FVec Ideal S1048576x8 .f32 :=
  addf (Host.dotGeneral dot_S1048576x64_S64x8_S1048576x8_1_0_0_1_n_n none
      (maximumf (addf (Host.dotGeneral dot_S1048576x64_S64x64_S1048576x64_1_0_0_1_n_n none
          (maximumf (addf (Host.dotGeneral dot_S1048576x39_S39x64_S1048576x64_1_0_0_1_n_n none feat w0)
              (broadcastInDim S1048576x64 ![0, 1] bcast_S1x64_S1048576x64_0_1 (broadcastInDim S1x64 ![1] bcast_S64_S1x64_1 b0)))
            zeros64) w1)
          (broadcastInDim S1048576x64 ![0, 1] bcast_S1x64_S1048576x64_0_1 (broadcastInDim S1x64 ![1] bcast_S64_S1x64_1 b1)))
        zeros64) w2)
    (broadcastInDim S1048576x8 ![0, 1] bcast_S1x8_S1048576x8_0_1 (broadcastInDim S1x8 ![1] bcast_S8_S1x8_1 b2))

set_option maxHeartbeats 40000000 in
/-- The result buffer ends at `hostTail` of the feature matrix the head leaves and the parameter arrays. -/
theorem W_out (m : (ℓ : Loc nD τ sig) → Buf (Elt Ideal) ℓ) (c : Dev nD) :
    W m c main_v317 = hostTail (W m c main_v303) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold hostTail
  after_results_simp <;> rfl

/-- The zero row, at any entry. -/
theorem zeros64_apply (i : S1048576x64.Idx) : zeros64 i = Cert.Mlp.zr :=
  (Cert.LibBroadcasts.scalar_apply _ _ i).trans rfl

/-- `hostTail` at entry (p, c): the perceptron of feature row `p`. -/
theorem hostTail_apply (feat : FVec Ideal S1048576x39 .f32) (w0 : FVec Ideal S39x64 .f32) (b0 : FVec Ideal S64 .f32)
    (w1 : FVec Ideal S64x64 .f32) (b1 : FVec Ideal S64 .f32) (w2 : FVec Ideal S64x8 .f32) (b2 : FVec Ideal S8 .f32)
    (p : Fin 1048576) (c : Fin 8) :
    hostTail feat w0 b0 w1 b1 w2 b2 (ix2 p c)
      = Cert.Mlp.mlpRow Cert.Mlp.zr (fun j => feat (ix2 p j)) (fun k n => w0 (ix2 k n)) (fun n => b0 (ix1 n))
          (fun k n => w1 (ix2 k n)) (fun n => b1 (ix1 n)) (fun k n => w2 (ix2 k n)) (fun n => b2 (ix1 n)) c := by
  unfold hostTail Cert.Mlp.mlpRow
  refine (Cert.Mlp.host_layer_apply 1048576 64 8 _ _ _ _ _ p c).trans ?_
  refine congrArg (fun x => Cert.Mlp.layer x _ _ c) (funext fun k => ?_)
  rw [maximumf_apply, zeros64_apply]
  refine congrArg (fun y => max y Cert.Mlp.zr) ?_
  refine (Cert.Mlp.host_layer_apply 1048576 64 64 _ _ _ _ _ p k).trans ?_
  refine congrArg (fun x => Cert.Mlp.layer x _ _ k) (funext fun k' => ?_)
  rw [maximumf_apply, zeros64_apply]
  refine congrArg (fun y => max y Cert.Mlp.zr) ?_
  exact Cert.Mlp.host_layer_apply 1048576 39 64 _ _ _ _ _ p k'

end Cert.ReferenceIdeal.RefRun

end
-- ==== Proof.RefArgsA.lean ====
/-
  The reference leaves its argument arrays as launched: every operation writes its own result buffer, and none of
  those is an argument.
-/
import proofs.«106331_j11544872091650_1_alg».proof.Proof.RefRun

set_option maxRecDepth 16384

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 40000000 in
/-- No operation writes argument 0. -/
theorem W_main_arg0 (c : Dev nD) : W m c main_arg0 = m ((c.tc : Thread nD τ).loc main_arg0) :=
  StableHlo.after_of_forall_not_mem (b := Proc.devRef .tc main_arg0) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No operation writes argument 1. -/
theorem W_main_arg1 (c : Dev nD) : W m c main_arg1 = m ((c.tc : Thread nD τ).loc main_arg1) :=
  StableHlo.after_of_forall_not_mem (b := Proc.devRef .tc main_arg1) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No operation writes argument 2. -/
theorem W_main_arg2 (c : Dev nD) : W m c main_arg2 = m ((c.tc : Thread nD τ).loc main_arg2) :=
  StableHlo.after_of_forall_not_mem (b := Proc.devRef .tc main_arg2) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No operation writes argument 3. -/
theorem W_main_arg3 (c : Dev nD) : W m c main_arg3 = m ((c.tc : Thread nD τ).loc main_arg3) :=
  StableHlo.after_of_forall_not_mem (b := Proc.devRef .tc main_arg3) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No operation writes argument 4. -/
theorem W_main_arg4 (c : Dev nD) : W m c main_arg4 = m ((c.tc : Thread nD τ).loc main_arg4) :=
  StableHlo.after_of_forall_not_mem (b := Proc.devRef .tc main_arg4) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

end Cert.ReferenceIdeal.RefRun

end
-- ==== Proof.RefArgsB.lean ====
/-
  The reference leaves its argument arrays as launched: every operation writes its own result buffer, and none of
  those is an argument.
-/
import proofs.«106331_j11544872091650_1_alg».proof.Proof.RefRun

set_option maxRecDepth 16384

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 40000000 in
/-- No operation writes argument 5. -/
theorem W_main_arg5 (c : Dev nD) : W m c main_arg5 = m ((c.tc : Thread nD τ).loc main_arg5) :=
  StableHlo.after_of_forall_not_mem (b := Proc.devRef .tc main_arg5) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No operation writes argument 6. -/
theorem W_main_arg6 (c : Dev nD) : W m c main_arg6 = m ((c.tc : Thread nD τ).loc main_arg6) :=
  StableHlo.after_of_forall_not_mem (b := Proc.devRef .tc main_arg6) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No operation writes argument 7. -/
theorem W_main_arg7 (c : Dev nD) : W m c main_arg7 = m ((c.tc : Thread nD τ).loc main_arg7) :=
  StableHlo.after_of_forall_not_mem (b := Proc.devRef .tc main_arg7) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No operation writes argument 8. -/
theorem W_main_arg8 (c : Dev nD) : W m c main_arg8 = m ((c.tc : Thread nD τ).loc main_arg8) :=
  StableHlo.after_of_forall_not_mem (b := Proc.devRef .tc main_arg8) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 40000000 in
/-- No operation writes argument 9. -/
theorem W_main_arg9 (c : Dev nD) : W m c main_arg9 = m ((c.tc : Thread nD τ).loc main_arg9) :=
  StableHlo.after_of_forall_not_mem (b := Proc.devRef .tc main_arg9) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

end Cert.ReferenceIdeal.RefRun

end
-- ==== Proof.KIBias.lean ====
/-
  The three bias rows the kernel's windows stage are the bias vectors re-laid as one row: the host head's last
  three operations reshape [64], [64] and [8] to [1, 64], [1, 64] and [1, 8].
-/
import proofs.«106331_j11544872091650_1_alg».proof.Proof.KernelIdealEntry

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 40000000 in
/-- The row the region finds in `main_v304` is argument 4 re-laid. -/
theorem V_main_v304 (c : Dev nD) :
    V m c main_v304 = shapeCast S1x64 (m ((c : Thread nD τ).loc main_arg4)) shapeCasts_S64_S1x64 := by
  dsimp only [V]
  simp only [hostOps0, hostOps0_1, hostOps0_2, hostOps0_3, hostOps0_4, List.flatten_cons, List.flatten_nil, List.append_nil, List.cons_append,
    List.nil_append]
  after_results_simp <;> rfl
set_option maxHeartbeats 40000000 in
/-- The row the region finds in `main_v305` is argument 6 re-laid. -/
theorem V_main_v305 (c : Dev nD) :
    V m c main_v305 = shapeCast S1x64 (m ((c : Thread nD τ).loc main_arg6)) shapeCasts_S64_S1x64 := by
  dsimp only [V]
  simp only [hostOps0, hostOps0_1, hostOps0_2, hostOps0_3, hostOps0_4, List.flatten_cons, List.flatten_nil, List.append_nil, List.cons_append,
    List.nil_append]
  after_results_simp <;> rfl
set_option maxHeartbeats 40000000 in
/-- The row the region finds in `main_v306` is argument 8 re-laid. -/
theorem V_main_v306 (c : Dev nD) :
    V m c main_v306 = shapeCast S1x8 (m ((c : Thread nD τ).loc main_arg8)) shapeCasts_S8_S1x8 := by
  dsimp only [V]
  simp only [hostOps0, hostOps0_1, hostOps0_2, hostOps0_3, hostOps0_4, List.flatten_cons, List.flatten_nil, List.append_nil, List.cons_append,
    List.nil_append]
  after_results_simp <;> rfl

end Cert.KernelIdeal.Fr

end
-- ==== Proof.KIValue.lean ====
/-
  What the kernel's result array holds after the run.

  At grid point `t` the body sees rows `t·16384 … t·16384 + 16383` of the feature matrix and the whole of the six
  parameter arrays, and writes the perceptron of each of those rows into the same rows of the result; the 64
  points' blocks tile the 1048576 rows.  So the result is `Mlp.G` of the feature matrix the host head left and the
  parameter arrays (the bias rows are the bias vectors re-laid as one row): each point flushes the block of that one
  whole-array function, and the flushed blocks cover the array.
-/
import proofs.«106331_j11544872091650_1_alg».proof.Proof.KernelIdealFrame
import proofs.«106331_j11544872091650_1_alg».proof.Proof.MlpSpec
import proofs.«106331_j11544872091650_1_alg».proof.Proof.KIBias

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The body's value at an entry -/

/-- The stored value at row `p`, unit `c` of the block: the perceptron of row `p` of the loaded feature block. -/
theorem pay_apply (v0 : Vec Ideal S16384x39 .f32) (v3 : Vec Ideal S39x64 .f32) (v6 : Vec Ideal S1x64 .f32)
    (v12 : Vec Ideal S64x64 .f32) (v16 : Vec Ideal S1x64 .f32) (v22 : Vec Ideal S64x8 .f32) (v26 : Vec Ideal S1x8 .f32)
    (p : Fin 16384) (c : Fin 8) :
    k0_pay1 v0 v3 v6 v12 v16 v22 v26 (ix2 p c)
      = Cert.Mlp.mlpRow Cert.Mlp.zr (fun j => v0 (ix2 p j)) (fun k n => v3 (ix2 k n)) (fun n => v6 (ix2 0 n))
          (fun k n => v12 (ix2 k n)) (fun n => v16 (ix2 0 n)) (fun k n => v22 (ix2 k n)) (fun n => v26 (ix2 0 n)) c := by
  unfold k0_pay1 Cert.Mlp.mlpRow
  refine (Cert.Mlp.kernel_layer_apply 16384 64 8 _ _ _ _ _ _ _ p c).trans ?_
  refine congrArg (fun x => Cert.Mlp.layer x _ _ c) (funext fun k => ?_)
  refine congrArg (fun y => max y Cert.Mlp.zr) ?_
  refine (Cert.Mlp.kernel_layer_apply 16384 64 64 _ _ _ _ _ _ _ p k).trans ?_
  refine congrArg (fun x => Cert.Mlp.layer x _ _ k) (funext fun k' => ?_)
  refine congrArg (fun y => max y Cert.Mlp.zr) ?_
  refine (Cert.Mlp.kernel_layer_apply 16384 39 64 _ _ _ _ _ _ _ p k').trans ?_
  refine congrArg (fun x => Cert.Mlp.layer x _ _ k') (funext fun j => ?_)
  exact congrFun (shapeCast_self v0 _) (ix2 p j)

/-! ## The blocks -/

/-- The printed index maps over the grid: the feature window and the result window sit at row block `t`,
    column block 0; the six parameter windows at block (0, 0). -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `p` of point `t`'s block is row `t·16384 + p` of the array. -/
def row (t : Fin cfg0.N) (p : Fin 16384) : Fin 1048576 :=
  ⟨t.val * 16384 + p.val, by have ht : t.val < 64 := lt_of_lt_of_eq t.isLt N_0; have := p.isLt; omega⟩

/-! ## Reading the blocks -/

/-- The feature block at point `t`, row `p`: row `row t p` of the feature matrix. -/
theorem iblk0_apply (c : Dev nD) (t : Fin cfg0.N) (p : Fin 16384) (j : Fin 39) :
    iblk m c 0 t (ix2 p j) = V m c main_v303 (ix2 (row t p) j) := by
  obtain ⟨e0, e1, -⟩ := idx_facts t
  show V m c main_v303 (((cfg0.win 0).blk t).view.emb (ix2 p j)) = _
  refine congrArg (V m c main_v303) (funext fun a => Fin.ext ?_)
  match a with
  | ⟨0, _⟩ => show win0_0.index t (0 : Fin 2) * 16384 + 1 * p.val = t.val * 16384 + p.val; omega
  | ⟨1, _⟩ => show win0_0.index t (1 : Fin 2) * 39 + 1 * j.val = j.val; omega

/-- Window 1 sits at block (0, 0) at every point: its block is the whole array. -/
theorem iblk1_apply (c : Dev nD) (t : Fin cfg0.N) (k : Fin 39) (n : Fin 64) :
    iblk m c 1 t (ix2 k n) = V m c main_arg3 (ix2 k n) := by
  obtain ⟨-, -, -, -, e0, e1, -⟩ := idx_facts t
  show V m c main_arg3 (((cfg0.win 1).blk t).view.emb (ix2 k n)) = _
  refine congrArg (V m c main_arg3) (funext fun a => Fin.ext ?_)
  match a with
  | ⟨0, _⟩ => show win0_1.index t (0 : Fin 2) * 39 + 1 * k.val = k.val; omega
  | ⟨1, _⟩ => show win0_1.index t (1 : Fin 2) * 64 + 1 * n.val = n.val; omega
/-- Window 2 sits at block (0, 0) at every point: its block is the whole array. -/
theorem iblk2_apply (c : Dev nD) (t : Fin cfg0.N) (k : Fin 1) (n : Fin 64) :
    iblk m c 2 t (ix2 k n) = V m c main_v304 (ix2 k n) := by
  obtain ⟨-, -, -, -, -, -, e0, e1, -⟩ := idx_facts t
  show V m c main_v304 (((cfg0.win 2).blk t).view.emb (ix2 k n)) = _
  refine congrArg (V m c main_v304) (funext fun a => Fin.ext ?_)
  match a with
  | ⟨0, _⟩ => show win0_2.index t (0 : Fin 2) * 1 + 1 * k.val = k.val; omega
  | ⟨1, _⟩ => show win0_2.index t (1 : Fin 2) * 64 + 1 * n.val = n.val; omega
/-- Window 3 sits at block (0, 0) at every point: its block is the whole array. -/
theorem iblk3_apply (c : Dev nD) (t : Fin cfg0.N) (k : Fin 64) (n : Fin 64) :
    iblk m c 3 t (ix2 k n) = V m c main_arg5 (ix2 k n) := by
  obtain ⟨-, -, -, -, -, -, -, -, e0, e1, -⟩ := idx_facts t
  show V m c main_arg5 (((cfg0.win 3).blk t).view.emb (ix2 k n)) = _
  refine congrArg (V m c main_arg5) (funext fun a => Fin.ext ?_)
  match a with
  | ⟨0, _⟩ => show win0_3.index t (0 : Fin 2) * 64 + 1 * k.val = k.val; omega
  | ⟨1, _⟩ => show win0_3.index t (1 : Fin 2) * 64 + 1 * n.val = n.val; omega
/-- Window 4 sits at block (0, 0) at every point: its block is the whole array. -/
theorem iblk4_apply (c : Dev nD) (t : Fin cfg0.N) (k : Fin 1) (n : Fin 64) :
    iblk m c 4 t (ix2 k n) = V m c main_v305 (ix2 k n) := by
  obtain ⟨-, -, -, -, -, -, -, -, -, -, e0, e1, -⟩ := idx_facts t
  show V m c main_v305 (((cfg0.win 4).blk t).view.emb (ix2 k n)) = _
  refine congrArg (V m c main_v305) (funext fun a => Fin.ext ?_)
  match a with
  | ⟨0, _⟩ => show win0_4.index t (0 : Fin 2) * 1 + 1 * k.val = k.val; omega
  | ⟨1, _⟩ => show win0_4.index t (1 : Fin 2) * 64 + 1 * n.val = n.val; omega
/-- Window 5 sits at block (0, 0) at every point: its block is the whole array. -/
theorem iblk5_apply (c : Dev nD) (t : Fin cfg0.N) (k : Fin 64) (n : Fin 8) :
    iblk m c 5 t (ix2 k n) = V m c main_arg7 (ix2 k n) := by
  obtain ⟨-, -, -, -, -, -, -, -, -, -, -, -, e0, e1, -⟩ := idx_facts t
  show V m c main_arg7 (((cfg0.win 5).blk t).view.emb (ix2 k n)) = _
  refine congrArg (V m c main_arg7) (funext fun a => Fin.ext ?_)
  match a with
  | ⟨0, _⟩ => show win0_5.index t (0 : Fin 2) * 64 + 1 * k.val = k.val; omega
  | ⟨1, _⟩ => show win0_5.index t (1 : Fin 2) * 8 + 1 * n.val = n.val; omega
/-- Window 6 sits at block (0, 0) at every point: its block is the whole array. -/
theorem iblk6_apply (c : Dev nD) (t : Fin cfg0.N) (k : Fin 1) (n : Fin 8) :
    iblk m c 6 t (ix2 k n) = V m c main_v306 (ix2 k n) := by
  obtain ⟨-, -, -, -, -, -, -, -, -, -, -, -, -, -, e0, e1⟩ := idx_facts t
  show V m c main_v306 (((cfg0.win 6).blk t).view.emb (ix2 k n)) = _
  refine congrArg (V m c main_v306) (funext fun a => Fin.ext ?_)
  match a with
  | ⟨0, _⟩ => show win0_6.index t (0 : Fin 2) * 1 + 1 * k.val = k.val; omega
  | ⟨1, _⟩ => show win0_6.index t (1 : Fin 2) * 8 + 1 * n.val = n.val; omega

/-- A bias row at (0, n) is the bias vector at n. -/
theorem bias0 (c : Dev nD) (n : Fin 64) : V m c main_v304 (ix2 0 n) = m ((c : Thread nD τ).loc main_arg4) (ix1 n) :=
  (congrFun (V_main_v304 m c) (ix2 0 n)).trans (Cert.LibBroadcasts.row_cast_apply _ _ 0 n)
theorem bias1 (c : Dev nD) (n : Fin 64) : V m c main_v305 (ix2 0 n) = m ((c : Thread nD τ).loc main_arg6) (ix1 n) :=
  (congrFun (V_main_v305 m c) (ix2 0 n)).trans (Cert.LibBroadcasts.row_cast_apply _ _ 0 n)
theorem bias2 (c : Dev nD) (n : Fin 8) : V m c main_v306 (ix2 0 n) = m ((c : Thread nD τ).loc main_arg8) (ix1 n) :=
  (congrFun (V_main_v306 m c) (ix2 0 n)).trans (Cert.LibBroadcasts.row_cast_apply _ _ 0 n)

/-! ## From the blocks to the array -/

/-- The result array, as a function of what the region finds. -/
abbrev result (c : Dev nD) : S1048576x8.Idx → EReal :=
  Cert.Mlp.G (V m c main_v303) (V m c main_arg3) (m ((c : Thread nD τ).loc main_arg4)) (V m c main_arg5)
    (m ((c : Thread nD τ).loc main_arg6)) (V m c main_arg7) (m ((c : Thread nD τ).loc main_arg8))

/-- Entry (p, q) of point `t`'s result block is entry (`row t p`, q) of the array. -/
theorem emb7 (t : Fin cfg0.N) (p : Fin 16384) (q : Fin 8) :
    ((cfg0.win 7).blk t).view.emb (ix2 p q) = (ix2 (row t p) q : S1048576x8.Idx) := by
  obtain ⟨-, -, e0, e1, -⟩ := idx_facts t
  refine funext fun a => Fin.ext ?_
  match a with
  | ⟨0, _⟩ => show win0_7.index t (0 : Fin 2) * 16384 + 1 * p.val = t.val * 16384 + p.val; omega
  | ⟨1, _⟩ => show win0_7.index t (1 : Fin 2) * 8 + 1 * q.val = q.val; omega

/-- What point `t` writes back is block `t` of `result`. -/
theorem flushed7_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7]
  unfold out0_7
  rw [View.canon_unit_zero hz]
  simp only [View.ld_unit_zero (S := S16384x39) hz, View.ld_unit_zero (S := S39x64) hz, View.ld_unit_zero (S := S1x64) hz,
    View.ld_unit_zero (S := S64x64) hz, View.ld_unit_zero (S := S64x8) hz, View.ld_unit_zero (S := S1x8) hz]
  funext j
  obtain ⟨p, q, rfl⟩ : ∃ (p : Fin 16384) (q : Fin 8), j = ix2 p q := ⟨j 0, j 1, eq_ix2 j⟩
  show k0_pay1 (iblk m c 0 t) (iblk m c 1 t) (iblk m c 2 t) (iblk m c 3 t) (iblk m c 4 t) (iblk m c 5 t) (iblk m c 6 t) (ix2 p q)
      = result m c (((cfg0.win 7).blk t).view.emb (ix2 p q))
  refine (pay_apply _ _ _ _ _ _ _ p q).trans ?_
  refine Eq.trans ?_ (congrArg (result m c) (emb7 t p q).symm)
  have a0 : (fun j => iblk m c 0 t (ix2 p j)) = fun j => V m c main_v303 (ix2 (row t p) j) := funext fun j => iblk0_apply m c t p j
  have a1 : (fun k n => iblk m c 1 t (ix2 k n)) = fun k n => V m c main_arg3 (ix2 k n) := funext fun k => funext fun n => iblk1_apply m c t k n
  have a2 : (fun n => iblk m c 2 t (ix2 0 n)) = fun n => m ((c : Thread nD τ).loc main_arg4) (ix1 n) := funext fun n => (iblk2_apply m c t 0 n).trans (bias0 m c n)
  have a3 : (fun k n => iblk m c 3 t (ix2 k n)) = fun k n => V m c main_arg5 (ix2 k n) := funext fun k => funext fun n => iblk3_apply m c t k n
  have a4 : (fun n => iblk m c 4 t (ix2 0 n)) = fun n => m ((c : Thread nD τ).loc main_arg6) (ix1 n) := funext fun n => (iblk4_apply m c t 0 n).trans (bias1 m c n)
  have a5 : (fun k n => iblk m c 5 t (ix2 k n)) = fun k n => V m c main_arg7 (ix2 k n) := funext fun k => funext fun n => iblk5_apply m c t k n
  have a6 : (fun n => iblk m c 6 t (ix2 0 n)) = fun n => m ((c : Thread nD τ).loc main_arg8) (ix1 n) := funext fun n => (iblk6_apply m c t 0 n).trans (bias2 m c n)
  rw [a0, a1, a2, a3, a4, a5, a6]
  rfl

/-- An index of the result array is in point `t`'s block iff each coordinate is in the block's range. -/
theorem mem_blk7 (t : Fin cfg0.N) (i : S1048576x8.Idx) :
    i ∈ ((cfg0.win 7).blk t).view.set ↔ ∀ a : Fin 2, win0_7.index t a * S16384x8.size a ≤ (i a).val ∧ (i a).val < win0_7.index t a * S16384x8.size a + S16384x8.size a := by
  show i ∈ ((View.whole main_v307).slice (win0_7.rect t)).set ↔ _
  rw [View.set_slice_whole, Rect.mem_set_unit]
  exact Iff.rfl

/-- The 64 blocks cover the array: row `r` is in the block of point `r / 16384`. -/
theorem cover7 (i : S1048576x8.Idx) : ∃ t : Fin cfg0.N, (cfg0.win 7).flush t = true ∧ i ∈ ((cfg0.win 7).blk t).view.set := by
  have hi0 : (i 0).val < 1048576 := (i 0).isLt
  have hi1 : (i 1).val < 8 := (i 1).isLt
  obtain ⟨t, ht⟩ : ∃ t : Fin cfg0.N, t.val = (i 0).val / 16384 :=
    ⟨⟨(i 0).val / 16384, lt_of_lt_of_eq (by omega : (i 0).val / 16384 < 64) N_0.symm⟩, rfl⟩
  obtain ⟨-, -, e0, e1, -⟩ := idx_facts t
  refine ⟨t, flush0_7 t, ?_⟩
  rw [mem_blk7]
  intro a
  match a with
  | ⟨0, _⟩ => show win0_7.index t (0 : Fin 2) * 16384 ≤ (i 0).val ∧ (i 0).val < win0_7.index t (0 : Fin 2) * 16384 + 16384; omega
  | ⟨1, _⟩ => show win0_7.index t (1 : Fin 2) * 8 ≤ (i 1).val ∧ (i 1).val < win0_7.index t (1 : Fin 2) * 8 + 8; omega

/-- The result array after the run. -/
theorem final7 (c : Dev nD) : (dats m 0 c).arrAt 7 cfg0.N = result m c :=
  (dats m 0 c).arrAt_eq_of_cover 7 (result m c) (fun t _ => flushed7_eq m c t) cover7

/-! ## The run, read -/

/-- Every weakly fair execution of the kernel's program terminates with the result array at `result` and the
    argument arrays as launched. -/
theorem run : θ_run defs (onTc (τ := τ) (main (F := Ideal))) ⟨m, fun _ => 0, ρ⟩ fun r => ∀ c : Dev nD,
      r.2.mem ((c.tc : Thread nD τ).loc main_v307) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).1 3).trans (((dats m 0 c).arrAt_in 3 rfl _).trans ((A_eq m c 3).trans (V_main_arg5 m c))),
      ((h c).2 main_arg6 (Pipeline.mem_restRefs_of main_arg6 (by decide) (by decide))).trans (V_main_arg6 m c),
      ((h c).1 5).trans (((dats m 0 c).arrAt_in 5 rfl _).trans ((A_eq m c 5).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.Val

end
-- ==== Proof.Bridge.lean ====
/-
  The two results are one array.  The reference's result is its three host layers applied to its feature matrix;
  the kernel's is `Mlp.G` of the feature matrix its region found.  From argument arrays that agree the feature
  matrices agree (the shared host head), the parameter arrays reach the kernel's region unchanged, and both
  spellings of the three layers, read at an entry, are the perceptron of the same feature row.
-/
import proofs.«106331_j11544872091650_1_alg».proof.Proof.HeadEq
import proofs.«106331_j11544872091650_1_alg».proof.Proof.RefTail
import proofs.«106331_j11544872091650_1_alg».proof.Proof.RefArgsA
import proofs.«106331_j11544872091650_1_alg».proof.Proof.RefArgsB
import proofs.«106331_j11544872091650_1_alg».proof.Proof.KIValue

set_option maxRecDepth 16384

noncomputable section

namespace Cert.Bridge

open Idealize.ShloMosaic Idealize.ShloMosaic.TcCoe Idealize.SL.Sem Idealize.ShloMosaic.ValueIdx

/-- From agreeing arguments, the reference's result buffer ends at the kernel's result array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.RefRun.W m' c Cert.ReferenceIdeal.main_v317 = Cert.KernelIdeal.Val.result m c := by
  obtain ⟨h0, h1, h2, h3, h4, h5, h6, h7, h8, h9⟩ := hag
  rw [Cert.ReferenceIdeal.RefRun.W_out, feat_eq m m' c h0 h1 h2 h9, h3, h4, h5, h6, h7, h8]
  funext i
  obtain ⟨p, q, rfl⟩ : ∃ (p : Fin 1048576) (q : Fin 8), i = ix2 p q := ⟨i 0, i 1, eq_ix2 i⟩
  refine (Cert.ReferenceIdeal.RefRun.hostTail_apply _ _ _ _ _ _ _ p q).trans ?_
  show _ = Cert.Mlp.G _ _ _ _ _ _ _ (ix2 p q)
  unfold Cert.Mlp.G
  rw [Cert.KernelIdeal.Fr.V_main_arg3 m c, Cert.KernelIdeal.Fr.V_main_arg5 m c, Cert.KernelIdeal.Fr.V_main_arg7 m c]

end Cert.Bridge

end
-- ==== Proof.lean ====
/-
  The certificate of the expert-routing perceptron kernel against its reference.

  Both programs first compute, by the same 378 host operations, the [1048576, 39] feature matrix: the trilinear
  sample of the feature grid at each ray point, joined with the sinusoidally encoded view direction of the point's
  ray.  The reference then applies three affine layers with a rectifier after the first two as whole-matrix host
  products; the kernel runs the same three layers over blocks of 16384 rows in one pipelined region, its operands
  rounded to bf16 on the way into each product — the identity at the ideal instance.

  Frames: the two kernel programs are the host head followed by the region (the body loads its blocks whole and
  stores the result block whole, so nothing can fault and no argument is written); the reference is a straight
  line of host operations.  `preserves` is trivial: the ideal pass rewrote nothing.  `algebraic`: from agreeing
  arguments the feature matrices are one array, and entry (r, c) of either result is the perceptron of feature
  row `r` at unit `c` — a product into a zero accumulator and a `dot_general` are the same finite sum, so no
  law beyond that is used and the precondition is never opened.
-/
import proofs.«106331_j11544872091650_1_alg».proof.Defs
import proofs.«106331_j11544872091650_1_alg».proof.Proof.Gen.Kernel
import proofs.«106331_j11544872091650_1_alg».proof.Proof.Gen.KernelIdeal
import proofs.«106331_j11544872091650_1_alg».proof.Proof.Gen.ReferenceIdeal
import proofs.«106331_j11544872091650_1_alg».proof.Proof.Gen.Pre_finite_inputs
import proofs.«106331_j11544872091650_1_alg».proof.Proof.KernelFrame
import proofs.«106331_j11544872091650_1_alg».proof.Proof.KernelIdealFrame
import proofs.«106331_j11544872091650_1_alg».proof.Proof.Bridge

noncomputable section

namespace Cert.Proof

open Idealize.ShloMosaic Idealize.SL.Sem

/-- The word-level kernel program runs and leaves its arguments. -/
theorem frame_k : Cert.frame_Kernel := fun m ρ _ => Cert.Kernel.Fr.frame m ρ

/-- The idealized kernel program runs and leaves its arguments. -/
theorem frame_ki : Cert.frame_KernelIdeal := fun m ρ _ => Cert.KernelIdeal.Fr.frame m ρ

/-- The reference runs and leaves its arguments: its fold-form run, read at the ten argument buffers. -/
theorem frame_ri : Cert.frame_ReferenceIdeal := fun m ρ _ =>
  (θ_run Cert.ReferenceIdeal.defs _ _).mono (fun _ h c => ⟨(h c Cert.ReferenceIdeal.main_arg0).trans (Cert.ReferenceIdeal.RefRun.W_main_arg0 m c),
    (h c Cert.ReferenceIdeal.main_arg1).trans (Cert.ReferenceIdeal.RefRun.W_main_arg1 m c),
    (h c Cert.ReferenceIdeal.main_arg2).trans (Cert.ReferenceIdeal.RefRun.W_main_arg2 m c),
    (h c Cert.ReferenceIdeal.main_arg3).trans (Cert.ReferenceIdeal.RefRun.W_main_arg3 m c),
    (h c Cert.ReferenceIdeal.main_arg4).trans (Cert.ReferenceIdeal.RefRun.W_main_arg4 m c),
    (h c Cert.ReferenceIdeal.main_arg5).trans (Cert.ReferenceIdeal.RefRun.W_main_arg5 m c),
    (h c Cert.ReferenceIdeal.main_arg6).trans (Cert.ReferenceIdeal.RefRun.W_main_arg6 m c),
    (h c Cert.ReferenceIdeal.main_arg7).trans (Cert.ReferenceIdeal.RefRun.W_main_arg7 m c),
    (h c Cert.ReferenceIdeal.main_arg8).trans (Cert.ReferenceIdeal.RefRun.W_main_arg8 m c),
    (h c Cert.ReferenceIdeal.main_arg9).trans (Cert.ReferenceIdeal.RefRun.W_main_arg9 m c)⟩)
    (Cert.ReferenceIdeal.RefRun.run_fold (F := Ideal) m ρ)

/-- The ideal pass rewrote no operation. -/
theorem preserves : Cert.preserves_Kernel_KernelIdeal := trivial

/-- Both idealized programs run, to the same result array. -/
theorem algebraic : Cert.algebraic_KernelIdeal_ReferenceIdeal := by
  intro m ρ m' ρ' _ hagree
  refine ⟨fun c => Cert.KernelIdeal.Val.result m c, Cert.KernelIdeal.Val.run m ρ, ?_⟩
  exact (θ_run Cert.ReferenceIdeal.defs _ _).mono (fun _ h c => ⟨(h c Cert.ReferenceIdeal.main_v317).trans (Cert.Bridge.result_eq m m' c (hagree c)),
    (h c Cert.ReferenceIdeal.main_arg0).trans (Cert.ReferenceIdeal.RefRun.W_main_arg0 m' c),
    (h c Cert.ReferenceIdeal.main_arg1).trans (Cert.ReferenceIdeal.RefRun.W_main_arg1 m' c),
    (h c Cert.ReferenceIdeal.main_arg2).trans (Cert.ReferenceIdeal.RefRun.W_main_arg2 m' c),
    (h c Cert.ReferenceIdeal.main_arg3).trans (Cert.ReferenceIdeal.RefRun.W_main_arg3 m' c),
    (h c Cert.ReferenceIdeal.main_arg4).trans (Cert.ReferenceIdeal.RefRun.W_main_arg4 m' c),
    (h c Cert.ReferenceIdeal.main_arg5).trans (Cert.ReferenceIdeal.RefRun.W_main_arg5 m' c),
    (h c Cert.ReferenceIdeal.main_arg6).trans (Cert.ReferenceIdeal.RefRun.W_main_arg6 m' c),
    (h c Cert.ReferenceIdeal.main_arg7).trans (Cert.ReferenceIdeal.RefRun.W_main_arg7 m' c),
    (h c Cert.ReferenceIdeal.main_arg8).trans (Cert.ReferenceIdeal.RefRun.W_main_arg8 m' c),
    (h c Cert.ReferenceIdeal.main_arg9).trans (Cert.ReferenceIdeal.RefRun.W_main_arg9 m' c)⟩)
    (Cert.ReferenceIdeal.RefRun.run_fold (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
